-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "three_sixths" .f32 0x3F000000#32 ((33554433 / 67108864 : ℝ) : EReal)
  ∧ IdealRules.named_const.Statement Cert.KernelIdeal.κ "six_sixths" .f32 0x3F800000#32 ((33554433 / 33554432 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x64x64 : Shape := ⟨4, ![64, 128, 64, 64]⟩
abbrev S32x128x1x1 : Shape := ⟨4, ![32, 128, 1, 1]⟩
abbrev S32 : Shape := ⟨1, ![32]⟩
abbrev S128x32x1x1 : Shape := ⟨4, ![128, 32, 1, 1]⟩
abbrev S128 : Shape := ⟨1, ![128]⟩
abbrev S_ : Shape := ⟨0, ![]⟩

class Facts : Prop where
  bcast_S_S64x128x64x64 : S_.BroadcastsInDim S64x128x64x64 (![] : Fin 0 → Fin S64x128x64x64.rank)
  reducesTo_S64x128x64x64_S_d0_1_2_3 : S64x128x64x64.ReducesTo [0, 1, 2, 3] S_
  h_S_ : 0 < S_.numel
  bcast_S_S32x128x1x1 : S_.BroadcastsInDim S32x128x1x1 (![] : Fin 0 → Fin S32x128x1x1.rank)
  reducesTo_S32x128x1x1_S_d0_1_2_3 : S32x128x1x1.ReducesTo [0, 1, 2, 3] S_
  bcast_S_S32 : S_.BroadcastsInDim S32 (![] : Fin 0 → Fin S32.rank)
  reducesTo_S32_S_d0 : S32.ReducesTo [0] S_
  bcast_S_S128x32x1x1 : S_.BroadcastsInDim S128x32x1x1 (![] : Fin 0 → Fin S128x32x1x1.rank)
  reducesTo_S128x32x1x1_S_d0_1_2_3 : S128x32x1x1.ReducesTo [0, 1, 2, 3] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x32x1x1 1) : IVec S_ 1 :=
  let main_c_5 : IVec S_ 1 := constantI S_ 1 1#1
  let main_v17 : IVec S_ 1 := (fun x v => Host.reduce IntOp.andi x v reducesTo_S128x32x1x1_S_d0_1_2_3 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S64x128x64x64 .f32) (main_arg1 : FVec F S32x128x1x1 .f32) (main_arg2 : FVec F S32 .f32) (main_arg3 : FVec F S128x32x1x1 .f32) (main_arg4 : FVec F S128 .f32) : IVec S_ 1 :=
  let main_v0 : FVec F S64x128x64x64 .f32 := Host.absf main_arg0
  let main_cst : FVec F S_ .f32 := constant S_ .f32 0x7F800000#32
  let main_v1 : FVec F S64x128x64x64 .f32 := broadcastInDim S64x128x64x64 ![] bcast_S_S64x128x64x64 main_cst
  let main_v2 : IVec S64x128x64x64 1 := cmpf .olt main_v0 main_v1
  let main_c : IVec S_ 1 := constantI S_ 1 1#1
  let main_v3 : IVec S_ 1 := (fun x v => Host.reduce IntOp.andi x v reducesTo_S64x128x64x64_S_d0_1_2_3 h_S_) main_v2 main_c
  let main_v4 : FVec F S32x128x1x1 .f32 := Host.absf main_arg1
  let main_cst_0 : FVec F S_ .f32 := constant S_ .f32 0x7F800000#32
  let main_v5 : FVec F S32x128x1x1 .f32 := broadcastInDim S32x128x1x1 ![] bcast_S_S32x128x1x1 main_cst_0
  let main_v6 : IVec S32x128x1x1 1 := cmpf .olt main_v4 main_v5
  let main_c_1 : IVec S_ 1 := constantI S_ 1 1#1
  let main_v7 : IVec S_ 1 := (fun x v => Host.reduce IntOp.andi x v reducesTo_S32x128x1x1_S_d0_1_2_3 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S128x32x1x1 .f32 := Host.absf main_arg3
  let main_cst_4 : FVec F S_ .f32 := constant S_ .f32 0x7F800000#32
  let main_v15 : FVec F S128x32x1x1 .f32 := broadcastInDim S128x32x1x1 ![] bcast_S_S128x32x1x1 main_cst_4
  let main_v16 : IVec S128x32x1x1 1 := cmpf .olt main_v14 main_v15
  fn_part1 (F := F) main_arg4 main_v13 main_v16
-- ==== Kernel.lean ====
abbrev S64x128x64x64 : Shape := ⟨4, ![64, 128, 64, 64]⟩
abbrev S32x128x1x1 : Shape := ⟨4, ![32, 128, 1, 1]⟩
abbrev S32 : Shape := ⟨1, ![32]⟩
abbrev S128x32x1x1 : Shape := ⟨4, ![128, 32, 1, 1]⟩
abbrev S128 : Shape := ⟨1, ![128]⟩
abbrev S8192x4096 : Shape := ⟨2, ![8192, 4096]⟩
abbrev S32x128 : Shape := ⟨2, ![32, 128]⟩
abbrev S1x32 : Shape := ⟨2, ![1, 32]⟩
abbrev S128x32 : Shape := ⟨2, ![128, 32]⟩
abbrev S128x1 : Shape := ⟨2, ![128, 1]⟩
abbrev S128x4096 : Shape := ⟨2, ![128, 4096]⟩
abbrev S128x512 : Shape := ⟨2, ![128, 512]⟩
abbrev S1x128 : Shape := ⟨2, ![1, 128]⟩
abbrev S32x1 : Shape := ⟨2, ![32, 1]⟩

abbrev nBuf : Space → Nat
  | .hbm => 12
  | .vmem => 8
  | .smem => 0
  | _ => 0

abbrev bufTy : (tb : Table) → Fin (tcTables nBuf tb) → BufTy
  | .hbm, ⟨0, _⟩ => ⟨S64x128x64x64, .f32⟩
  | .hbm, ⟨1, _⟩ => ⟨S32x128x1x1, .f32⟩
  | .hbm, ⟨2, _⟩ => ⟨S32, .f32⟩
  | .hbm, ⟨3, _⟩ => ⟨S128x32x1x1, .f32⟩
  | .hbm, ⟨4, _⟩ => ⟨S128, .f32⟩
  | .hbm, ⟨5, _⟩ => ⟨S8192x4096, .f32⟩
  | .hbm, ⟨6, _⟩ => ⟨S32x128, .f32⟩
  | .hbm, ⟨7, _⟩ => ⟨S1x32, .f32⟩
  | .hbm, ⟨8, _⟩ => ⟨S128x32, .f32⟩
  | .hbm, ⟨9, _⟩ => ⟨S128x1, .f32⟩
  | .hbm, ⟨10, _⟩ => ⟨S8192x4096, .f32⟩
  | .hbm, ⟨11, _⟩ => ⟨S64x128x64x64, .f32⟩
  | .local _ .vmem, ⟨0, _⟩ => ⟨S128x4096, .f32⟩
  | .local _ .vmem, ⟨1, _⟩ => ⟨S128x4096, .f32⟩
  | .local _ .vmem, ⟨2, _⟩ => ⟨S32x128, .f32⟩
  | .local _ .vmem, ⟨3, _⟩ => ⟨S1x32, .f32⟩
  | .local _ .vmem, ⟨4, _⟩ => ⟨S128x32, .f32⟩
  | .local _ .vmem, ⟨5, _⟩ => ⟨S128x1, .f32⟩
  | .local _ .vmem, ⟨6, _⟩ => ⟨S128x4096, .f32⟩
  | .local _ .vmem, ⟨7, _⟩ => ⟨S128x4096, .f32⟩
  | _, _ => ⟨S64x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x128x64x64_S8192x4096 : S64x128x64x64.ShapeCasts S8192x4096
  shapeCasts_S32x128x1x1_S32x128 : S32x128x1x1.ShapeCasts S32x128
  shapeCasts_S32_S1x32 : S32.ShapeCasts S1x32
  shapeCasts_S128x32x1x1_S128x32 : S128x32x1x1.ShapeCasts S128x32
  shapeCasts_S128_S128x1 : S128.ShapeCasts S128x1
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  slices_S128x4096_o0_0_S128x512 : S128x4096.Slices ![0, 0] S128x512
  slices_S128x4096_o0_512_S128x512 : S128x4096.Slices ![0, 512] S128x512
  slices_S128x4096_o0_1024_S128x512 : S128x4096.Slices ![0, 1024] S128x512
  slices_S128x4096_o0_1536_S128x512 : S128x4096.Slices ![0, 1536] S128x512
  slices_S128x4096_o0_2048_S128x512 : S128x4096.Slices ![0, 2048] S128x512
  slices_S128x4096_o0_2560_S128x512 : S128x4096.Slices ![0, 2560] S128x512
  slices_S128x4096_o0_3072_S128x512 : S128x4096.Slices ![0, 3072] S128x512
  slices_S128x4096_o0_3584_S128x512 : S128x4096.Slices ![0, 3584] S128x512
  reduces_S128x512_S128 : S128x512.Reduces [1] S128
  transposes_S128x1_p1_0_S1x128 : S128x1.Transposes [1, 0] S1x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  broadcasts_S1x128_S32x128 : S1x128.Broadcasts S32x128
  reduces_S32x128_S32 : S32x128.Reduces [1] S32
  shapeCasts_S32_S32x1 : S32.ShapeCasts S32x1
  transposes_S32x1_p1_0_S1x32 : S32x1.Transposes [1, 0] S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  broadcasts_S1x32_S128x32 : S1x32.Broadcasts S128x32
  reduces_S128x32_S128 : S128x32.Reduces [1] S128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  shapeCasts_S8192x4096_S64x128x64x64 : S8192x4096.ShapeCasts S64x128x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S8192x4096.size a
  hwx0_5 : ∀ i : grid0.Coords, EltTy.bits .f32 = 32 ∨ (Rect.block (s := S8192x4096) S128x4096.size (cc0_transform_5 i) (hinb0_5 i)).WholeWords (EltTy.packing .f32)

variable [Facts₀]

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x128x64x64 : Shape := ⟨4, ![64, 128, 64, 64]⟩
abbrev S32x128x1x1 : Shape := ⟨4, ![32, 128, 1, 1]⟩
abbrev S32 : Shape := ⟨1, ![32]⟩
abbrev S128x32x1x1 : Shape := ⟨4, ![128, 32, 1, 1]⟩
abbrev S128 : Shape := ⟨1, ![128]⟩
abbrev S32x128 : Shape := ⟨2, ![32, 128]⟩
abbrev S128x32 : Shape := ⟨2, ![128, 32]⟩
abbrev S1x32 : Shape := ⟨2, ![1, 32]⟩
abbrev S128x1 : Shape := ⟨2, ![128, 1]⟩
abbrev S64x128x4096 : Shape := ⟨3, ![64, 128, 4096]⟩
abbrev S1x128x4096 : Shape := ⟨3, ![1, 128, 4096]⟩
abbrev S1x128x128 : Shape := ⟨3, ![1, 128, 128]⟩
abbrev S128x128 : Shape := ⟨2, ![128, 128]⟩
abbrev S128x4096 : Shape := ⟨2, ![128, 4096]⟩

abbrev nBuf : Space → Nat
  | .hbm => 13
  | .vmem => 8
  | .smem => 0
  | _ => 0

abbrev bufTy : (tb : Table) → Fin (tcTables nBuf tb) → BufTy
  | .hbm, ⟨0, _⟩ => ⟨S64x128x64x64, .f32⟩
  | .hbm, ⟨1, _⟩ => ⟨S32x128x1x1, .f32⟩
  | .hbm, ⟨2, _⟩ => ⟨S32, .f32⟩
  | .hbm, ⟨3, _⟩ => ⟨S128x32x1x1, .f32⟩
  | .hbm, ⟨4, _⟩ => ⟨S128, .f32⟩
  | .hbm, ⟨5, _⟩ => ⟨S32x128, .f32⟩
  | .hbm, ⟨6, _⟩ => ⟨S128x32, .f32⟩
  | .hbm, ⟨7, _⟩ => ⟨S1x32, .f32⟩
  | .hbm, ⟨8, _⟩ => ⟨S128x32, .f32⟩
  | .hbm, ⟨9, _⟩ => ⟨S128x1, .f32⟩
  | .hbm, ⟨10, _⟩ => ⟨S64x128x4096, .f32⟩
  | .hbm, ⟨11, _⟩ => ⟨S64x128x4096, .f32⟩
  | .hbm, ⟨12, _⟩ => ⟨S64x128x64x64, .f32⟩
  | .local _ .vmem, ⟨0, _⟩ => ⟨S1x128x4096, .f32⟩
  | .local _ .vmem, ⟨1, _⟩ => ⟨S1x128x4096, .f32⟩
  | .local _ .vmem, ⟨2, _⟩ => ⟨S128x32, .f32⟩
  | .local _ .vmem, ⟨3, _⟩ => ⟨S1x32, .f32⟩
  | .local _ .vmem, ⟨4, _⟩ => ⟨S128x32, .f32⟩
  | .local _ .vmem, ⟨5, _⟩ => ⟨S128x1, .f32⟩
  | .local _ .vmem, ⟨6, _⟩ => ⟨S1x128x4096, .f32⟩
  | .local _ .vmem, ⟨7, _⟩ => ⟨S1x128x4096, .f32⟩
  | _, _ => ⟨S64x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x128x1x1_S32x128 : S32x128x1x1.ShapeCasts S32x128
  transposes_S32x128_S128x32_1_0 : S32x128.Transposes [1, 0] S128x32
  shapeCasts_S32_S1x32 : S32.ShapeCasts S1x32
  shapeCasts_S128x32x1x1_S128x32 : S128x32x1x1.ShapeCasts S128x32
  shapeCasts_S128_S128x1 : S128.ShapeCasts S128x1
  shapeCasts_S64x128x64x64_S64x128x4096 : S64x128x64x64.ShapeCasts S64x128x4096
  shapeCasts_S64x128x4096_S64x128x64x64 : S64x128x4096.ShapeCasts S64x128x64x64
  inb_S1x128x4096_S1x128x128_0_0_0 : ∀ a, (![0, 0, 0] : Fin 3 → Nat) a + S1x128x128.size a ≤ S1x128x4096.size a
  h_S1x128x128 : 0 < S1x128x128.numel
  shapeCasts_S1x128x128_S128x128 : S1x128x128.ShapeCasts S128x128
  inb_S1x128x4096_S1x128x128_0_0_128 : ∀ a, (![0, 0, 128] : Fin 3 → Nat) a + S1x128x128.size a ≤ S1x128x4096.size a
  inb_S1x128x4096_S1x128x128_0_0_256 : ∀ a, (![0, 0, 256] : Fin 3 → Nat) a + S1x128x128.size a ≤ S1x128x4096.size a
  inb_S1x128x4096_S1x128x128_0_0_384 : ∀ a, (![0, 0, 384] : Fin 3 → Nat) a + S1x128x128.size a ≤ S1x128x4096.size a
  inb_S1x128x4096_S1x128x128_0_0_512 : ∀ a, (![0, 0, 512] : Fin 3 → Nat) a + S1x128x128.size a ≤ S1x128x4096.size a
  inb_S1x128x4096_S1x128x128_0_0_640 : ∀ a, (![0, 0, 640] : Fin 3 → Nat) a + S1x128x128.size a ≤ S1x128x4096.size a
  inb_S1x128x4096_S1x128x128_0_0_768 : ∀ a, (![0, 0, 768] : Fin 3 → Nat) a + S1x128x128.size a ≤ S1x128x4096.size a
  inb_S1x128x4096_S1x128x128_0_0_896 : ∀ a, (![0, 0, 896] : Fin 3 → Nat) a + S1x128x128.size a ≤ S1x128x4096.size a
  inb_S1x128x4096_S1x128x128_0_0_1024 : ∀ a, (![0, 0, 1024] : Fin 3 → Nat) a + S1x128x128.size a ≤ S1x128x4096.size a
  inb_S1x128x4096_S1x128x128_0_0_1152 : ∀ a, (![0, 0, 1152] : Fin 3 → Nat) a + S1x128x128.size a ≤ S1x128x4096.size a
  inb_S1x128x4096_S1x128x128_0_0_1280 : ∀ a, (![0, 0, 1280] : Fin 3 → Nat) a + S1x128x128.size a ≤ S1x128x4096.size a
  inb_S1x128x4096_S1x128x128_0_0_1408 : ∀ a, (![0, 0, 1408] : Fin 3 → Nat) a + S1x128x128.size a ≤ S1x128x4096.size a
  inb_S1x128x4096_S1x128x128_0_0_1536 : ∀ a, (![0, 0, 1536] : Fin 3 → Nat) a + S1x128x128.size a ≤ S1x128x4096.size a
  inb_S1x128x4096_S1x128x128_0_0_1664 : ∀ a, (![0, 0, 1664] : Fin 3 → Nat) a + S1x128x128.size a ≤ S1x128x4096.size a
  inb_S1x128x4096_S1x128x128_0_0_1792 : ∀ a, (![0, 0, 1792] : Fin 3 → Nat) a + S1x128x128.size a ≤ S1x128x4096.size a
  inb_S1x128x4096_S1x128x128_0_0_1920 : ∀ a, (![0, 0, 1920] : Fin 3 → Nat) a + S1x128x128.size a ≤ S1x128x4096.size a
  inb_S1x128x4096_S1x128x128_0_0_2048 : ∀ a, (![0, 0, 2048] : Fin 3 → Nat) a + S1x128x128.size a ≤ S1x128x4096.size a
  inb_S1x128x4096_S1x128x128_0_0_2176 : ∀ a, (![0, 0, 2176] : Fin 3 → Nat) a + S1x128x128.size a ≤ S1x128x4096.size a
  inb_S1x128x4096_S1x128x128_0_0_2304 : ∀ a, (![0, 0, 2304] : Fin 3 → Nat) a + S1x128x128.size a ≤ S1x128x4096.size a
  inb_S1x128x4096_S1x128x128_0_0_2432 : ∀ a, (![0, 0, 2432] : Fin 3 → Nat) a + S1x128x128.size a ≤ S1x128x4096.size a
  inb_S1x128x4096_S1x128x128_0_0_2560 : ∀ a, (![0, 0, 2560] : Fin 3 → Nat) a + S1x128x128.size a ≤ S1x128x4096.size a
  inb_S1x128x4096_S1x128x128_0_0_2688 : ∀ a, (![0, 0, 2688] : Fin 3 → Nat) a + S1x128x128.size a ≤ S1x128x4096.size a
  inb_S1x128x4096_S1x128x128_0_0_2816 : ∀ a, (![0, 0, 2816] : Fin 3 → Nat) a + S1x128x128.size a ≤ S1x128x4096.size a
  inb_S1x128x4096_S1x128x128_0_0_2944 : ∀ a, (![0, 0, 2944] : Fin 3 → Nat) a + S1x128x128.size a ≤ S1x128x4096.size a
  inb_S1x128x4096_S1x128x128_0_0_3072 : ∀ a, (![0, 0, 3072] : Fin 3 → Nat) a + S1x128x128.size a ≤ S1x128x4096.size a
  inb_S1x128x4096_S1x128x128_0_0_3200 : ∀ a, (![0, 0, 3200] : Fin 3 → Nat) a + S1x128x128.size a ≤ S1x128x4096.size a
  inb_S1x128x4096_S1x128x128_0_0_3328 : ∀ a, (![0, 0, 3328] : Fin 3 → Nat) a + S1x128x128.size a ≤ S1x128x4096.size a
  inb_S1x128x4096_S1x128x128_0_0_3456 : ∀ a, (![0, 0, 3456] : Fin 3 → Nat) a + S1x128x128.size a ≤ S1x128x4096.size a
  inb_S1x128x4096_S1x128x128_0_0_3584 : ∀ a, (![0, 0, 3584] : Fin 3 → Nat) a + S1x128x128.size a ≤ S1x128x4096.size a
  inb_S1x128x4096_S1x128x128_0_0_3712 : ∀ a, (![0, 0, 3712] : Fin 3 → Nat) a + S1x128x128.size a ≤ S1x128x4096.size a
  inb_S1x128x4096_S1x128x128_0_0_3840 : ∀ a, (![0, 0, 3840] : Fin 3 → Nat) a + S1x128x128.size a ≤ S1x128x4096.size a
  inb_S1x128x4096_S1x128x128_0_0_3968 : ∀ a, (![0, 0, 3968] : Fin 3 → Nat) a + S1x128x128.size a ≤ S1x128x4096.size a
  reduces_S128x128_S128 : S128x128.Reduces [1] S128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  broadcasts_S128x1_S128x32 : S128x1.Broadcasts S128x32
  reduces_S128x32_S32 : S128x32.Reduces [0] S32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  reduces_S128x32_S128 : S128x32.Reduces [1] S128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  broadcasts_S128x1_S128x4096 : S128x1.Broadcasts S128x4096
  shapeCasts_S128x4096_S1x128x4096 : S128x4096.ShapeCasts S1x128x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S64x128x4096.size a
  hwx0_0 : ∀ i : grid0.Coords, EltTy.bits .f32 = 32 ∨ (Rect.block (s := S64x128x4096) S1x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x4096.size a ≤ S64x128x4096.size a
  hwx0_5 : ∀ i : grid0.Coords, EltTy.bits .f32 = 32 ∨ (Rect.block (s := S64x128x4096) S1x128x4096.size (cc0_transform_5 i) (hinb0_5 i)).WholeWords (EltTy.packing .f32)

variable [Facts₀]

abbrev win0_0 : Pipeline.Window sig grid0 :=
  Pipeline.Window.ofSpec (Memref.whole main_call0_v0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibKeepdims.lean ====
/-
  Layout operations between a vector, a column, a row and a matrix, and the one-axis sums of a matrix, each as ONE
  function of the result index — for any extents a, b:

    a vector [a] cast to the column [a, 1] or to the row [1, a];  a column [a, 1] transposed to the row [1, a];
    a row [1, b] broadcast down the rows of [a, b];  a column [a, 1] broadcast along the columns of [a, b];
    a unit-stride column window [a, w] of [a, b] at column offset o;
    at the extended reals, the sum of an [a, b] matrix along its columns (one value per row) and along its rows
    (one value per column), as sums over Fin b and Fin a.

  Each is an equation between functions, so a chain of such operations rewrites, operation by operation, into a
  plain expression in the operand's entries.
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type} {a b : Nat}

/-- The vector [a] cast to the column [a, 1]: entry (i, 0) is entry i. -/
theorem shapeCast_col (v : (⟨1, ![a]⟩ : Shape).Idx → α) (h : (⟨1, ![a]⟩ : Shape).ShapeCasts ⟨2, ![a, 1]⟩) :
    shapeCast ⟨2, ![a, 1]⟩ v h = fun i => v (ix1 (i 0)) := by
  funext i
  refine shapeCast_apply v h i (ix1 (i 0)) ?_
  rw [Shape.rowMajor_val_one, Shape.rowMajor_val_two]
  have h1 : (i 1).val < 1 := (i 1).isLt
  show (i 0).val = (i 0).val * 1 + (i 1).val
  omega

/-- The vector [b] cast to the row [1, b]: entry (0, j) is entry j. -/
theorem shapeCast_row (v : (⟨1, ![b]⟩ : Shape).Idx → α) (h : (⟨1, ![b]⟩ : Shape).ShapeCasts ⟨2, ![1, b]⟩) :
    shapeCast ⟨2, ![1, b]⟩ v h = fun i => v (ix1 (i 1)) := by
  funext i
  refine shapeCast_apply v h i (ix1 (i 1)) ?_
  rw [Shape.rowMajor_val_one, Shape.rowMajor_val_two]
  have h0 : (i 0).val < 1 := (i 0).isLt
  show (i 1).val = (i 0).val * b + (i 1).val
  have : (i 0).val = 0 := by omega
  rw [this]; omega

/-- The column [a, 1] transposed to the row [1, a]: entry (0, j) is entry (j, 0). -/
theorem transpose_col (v : (⟨2, ![a, 1]⟩ : Shape).Idx → α) (h : (⟨2, ![a, 1]⟩ : Shape).Transposes [1, 0] ⟨2, ![1, a]⟩) :
    transpose ⟨2, ![1, a]⟩ [1, 0] v h = fun i => v (ix2 (i 1) (i 0)) := by
  funext i
  refine transpose_apply [1, 0] v h i (ix2 (i 1) (i 0)) fun d => ?_
  match d with
  | ⟨0, _⟩ => rfl
  | ⟨1, _⟩ => rfl

/-- The row [1, b] broadcast to [a, b]: entry (i, j) is entry (0, j). -/
theorem broadcastTo_row (v : (⟨2, ![1, b]⟩ : Shape).Idx → α) (h : (⟨2, ![1, b]⟩ : Shape).Broadcasts ⟨2, ![a, b]⟩) :
    broadcastTo ⟨2, ![a, b]⟩ v h = fun i => v (ix2 ⟨0, Nat.one_pos⟩ (i 1)) := by
  funext i
  refine broadcastTo_apply v h i (ix2 ⟨0, Nat.one_pos⟩ (i 1)) fun d => ?_
  match d with
  | ⟨0, _⟩ => rfl
  | ⟨1, _⟩ =>
    show (i 1).val = if b = 1 then 0 else (i 1).val
    split
    · next hb => have h1 : (i 1).val < b := (i 1).isLt; omega
    · rfl

/-- The column [a, 1] broadcast to [a, b]: entry (i, j) is entry (i, 0). -/
theorem broadcastTo_col (v : (⟨2, ![a, 1]⟩ : Shape).Idx → α) (h : (⟨2, ![a, 1]⟩ : Shape).Broadcasts ⟨2, ![a, b]⟩) :
    broadcastTo ⟨2, ![a, b]⟩ v h = fun i => v (ix2 (i 0) ⟨0, Nat.one_pos⟩) := by
  funext i
  refine broadcastTo_apply v h i (ix2 (i 0) ⟨0, Nat.one_pos⟩) fun d => ?_
  match d with
  | ⟨0, _⟩ =>
    show (i 0).val = if a = 1 then 0 else (i 0).val
    split
    · next ha => have h0 : (i 0).val < a := (i 0).isLt; omega
    · rfl
  | ⟨1, _⟩ => rfl

/-- The window of w columns from column o of an [a, b] matrix: entry (i, j) is entry (i, o + j). -/
theorem slice_cols {w o : Nat} (x : (⟨2, ![a, b]⟩ : Shape).Idx → α) (h : (⟨2, ![a, b]⟩ : Shape).Slices ![0, o] ⟨2, ![a, w]⟩) :
    extractStridedSlice ⟨2, ![a, w]⟩ ![0, o] x h = fun i => x (ix2 (i 0) ⟨o + (i 1).val, by
      obtain ⟨_, hb⟩ := h
      have h1 : o + w ≤ b := hb (1 : Fin 2)
      have h2 : (i 1).val < w := (i 1).isLt
      omega⟩) := by
  funext i
  refine extractStridedSlice_apply ![0, o] x h i _ fun d => ?_
  match d with
  | ⟨0, _⟩ => show (i 0).val = 0 + (i 0).val; omega
  | ⟨1, _⟩ => rfl

/-- At the extended reals the sum of an [a, b] matrix over its second axis, at row i, is the sum over Fin b of row i. -/
theorem sum_axis1 {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) :
    multiReduction .add [1] ⟨1, ![a]⟩ src acc h hφ hacc = fun i => ∑ k : Fin b, src (ix2 (i 0) k) := by
  funext i
  rw [Ideal.multiReduction_add_single]
  refine Finset.sum_congr rfl fun k _ => congrArg src (funext fun d => Fin.ext ?_)
  rw [h.lift_val]
  match d with
  | ⟨0, _⟩ => rfl
  | ⟨1, _⟩ => rfl

/-- At the extended reals the sum of an [a, b] matrix over its first axis, at column j, is the sum over Fin a of column j. -/
theorem sum_axis0 {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) :
    multiReduction .add [0] ⟨1, ![b]⟩ src acc h hφ hacc = fun j => ∑ k : Fin a, src (ix2 k (j 0)) := by
  funext j
  rw [Ideal.multiReduction_add_single]
  refine Finset.sum_congr rfl fun k _ => congrArg src (funext fun d => Fin.ext ?_)
  rw [h.lift_val]
  match d with
  | ⟨0, _⟩ => rfl
  | ⟨1, _⟩ => rfl

end Cert.Keepdims

end
-- ==== Proof.Pool.lean ====
/-
  Summing the 4096 entries of a row in chunks.

  A row of length 4096 = m · n is summed by first adding its m chunks of length n entry by entry and then summing the n
  entries of the result; addition on the extended reals is commutative and associative, so whatever the grouping of
  the m chunks, the total is the sum of the row.  Two groupings occur: eight chunks of 512 added as a balanced binary
  tree, and thirty-two chunks of 128 added one after the other.
-/
import Mathlib.Algebra.BigOperators.Fin
import Mathlib.Algebra.BigOperators.Group.Finset.Basic
import Mathlib.Tactic

namespace Cert.Pool

variable {M : Type} [AddCommMonoid M]

/-- Chunk by chunk: the sum over the position l inside a chunk of the sum over the chunks k of entry n·k + l is the sum
    of all m·n entries. -/
theorem sum_blocks (m n : Nat) (f : Fin (m * n) → M) (g : Fin m → Fin n → M)
    (hg : ∀ k l, g k l = f (finProdFinEquiv (k, l))) : ∑ l, ∑ k, g k l = ∑ p, f p := by
  rw [Finset.sum_comm, ← Equiv.sum_comp finProdFinEquiv f, Fintype.sum_prod_type]
  exact Finset.sum_congr rfl fun k _ => Finset.sum_congr rfl fun l _ => hg k l

/-- A sum over thirty-two indices written out, first index innermost. -/
theorem sum_univ_32 (c : Fin 32 → M) :
    ∑ k, c k = (((((((((((((((((((((((((((((((c ⟨0, by norm_num⟩ + c ⟨1, by norm_num⟩) + c ⟨2, by norm_num⟩) + c ⟨3, by norm_num⟩) + c ⟨4, by norm_num⟩) + c ⟨5, by norm_num⟩) + c ⟨6, by norm_num⟩) + c ⟨7, by norm_num⟩) + c ⟨8, by norm_num⟩) + c ⟨9, by norm_num⟩) + c ⟨10, by norm_num⟩) + c ⟨11, by norm_num⟩) + c ⟨12, by norm_num⟩) + c ⟨13, by norm_num⟩) + c ⟨14, by norm_num⟩) + c ⟨15, by norm_num⟩) + c ⟨16, by norm_num⟩) + c ⟨17, by norm_num⟩) + c ⟨18, by norm_num⟩) + c ⟨19, by norm_num⟩) + c ⟨20, by norm_num⟩) + c ⟨21, by norm_num⟩) + c ⟨22, by norm_num⟩) + c ⟨23, by norm_num⟩) + c ⟨24, by norm_num⟩) + c ⟨25, by norm_num⟩) + c ⟨26, by norm_num⟩) + c ⟨27, by norm_num⟩) + c ⟨28, by norm_num⟩) + c ⟨29, by norm_num⟩) + c ⟨30, by norm_num⟩) + c ⟨31, by norm_num⟩) := by
  rw [Finset.sum_fin_eq_sum_range]
  simp only [Finset.sum_range_succ, Finset.sum_range_zero, zero_add, Nat.reduceLT, ↓reduceDIte]

/-- Eight chunks of 512 added as a balanced tree, then summed: the sum of the row. -/
theorem tree8 (f : Fin 4096 → M) :
    ∑ l : Fin 512, (((f ⟨0 + l.val, by have := l.isLt; omega⟩ + f ⟨512 + l.val, by have := l.isLt; omega⟩) + (f ⟨1024 + l.val, by have := l.isLt; omega⟩ + f ⟨1536 + l.val, by have := l.isLt; omega⟩)) + ((f ⟨2048 + l.val, by have := l.isLt; omega⟩ + f ⟨2560 + l.val, by have := l.isLt; omega⟩) + (f ⟨3072 + l.val, by have := l.isLt; omega⟩ + f ⟨3584 + l.val, by have := l.isLt; omega⟩))) = ∑ p, f p := by
  rw [← sum_blocks 8 512 f (fun k l => f ⟨512 * k.val + l.val, by have := k.isLt; have := l.isLt; omega⟩)
    (fun k l => congrArg f (Fin.ext (by simp only [finProdFinEquiv_apply_val]; omega)))]
  refine Finset.sum_congr rfl fun l _ => ?_
  rw [Fin.sum_univ_eight]
  simp only [add_assoc]
  rfl

/-- Thirty-two chunks of 128 added one after the other, then summed: the sum of the row. -/
theorem chain32 (f : Fin 4096 → M) :
    ∑ l : Fin 128, (((((((((((((((((((((((((((((((f ⟨0 + l.val, by have := l.isLt; omega⟩ + f ⟨128 + l.val, by have := l.isLt; omega⟩) + f ⟨256 + l.val, by have := l.isLt; omega⟩) + f ⟨384 + l.val, by have := l.isLt; omega⟩) + f ⟨512 + l.val, by have := l.isLt; omega⟩) + f ⟨640 + l.val, by have := l.isLt; omega⟩) + f ⟨768 + l.val, by have := l.isLt; omega⟩) + f ⟨896 + l.val, by have := l.isLt; omega⟩) + f ⟨1024 + l.val, by have := l.isLt; omega⟩) + f ⟨1152 + l.val, by have := l.isLt; omega⟩) + f ⟨1280 + l.val, by have := l.isLt; omega⟩) + f ⟨1408 + l.val, by have := l.isLt; omega⟩) + f ⟨1536 + l.val, by have := l.isLt; omega⟩) + f ⟨1664 + l.val, by have := l.isLt; omega⟩) + f ⟨1792 + l.val, by have := l.isLt; omega⟩) + f ⟨1920 + l.val, by have := l.isLt; omega⟩) + f ⟨2048 + l.val, by have := l.isLt; omega⟩) + f ⟨2176 + l.val, by have := l.isLt; omega⟩) + f ⟨2304 + l.val, by have := l.isLt; omega⟩) + f ⟨2432 + l.val, by have := l.isLt; omega⟩) + f ⟨2560 + l.val, by have := l.isLt; omega⟩) + f ⟨2688 + l.val, by have := l.isLt; omega⟩) + f ⟨2816 + l.val, by have := l.isLt; omega⟩) + f ⟨2944 + l.val, by have := l.isLt; omega⟩) + f ⟨3072 + l.val, by have := l.isLt; omega⟩) + f ⟨3200 + l.val, by have := l.isLt; omega⟩) + f ⟨3328 + l.val, by have := l.isLt; omega⟩) + f ⟨3456 + l.val, by have := l.isLt; omega⟩) + f ⟨3584 + l.val, by have := l.isLt; omega⟩) + f ⟨3712 + l.val, by have := l.isLt; omega⟩) + f ⟨3840 + l.val, by have := l.isLt; omega⟩) + f ⟨3968 + l.val, by have := l.isLt; omega⟩) = ∑ p, f p := by
  rw [← sum_blocks 32 128 f (fun k l => f ⟨128 * k.val + l.val, by have := k.isLt; have := l.isLt; omega⟩)
    (fun k l => congrArg f (Fin.ext (by simp only [finProdFinEquiv_apply_val]; omega)))]
  refine Finset.sum_congr rfl fun l _ => ?_
  rw [sum_univ_32]
  rfl

end Cert.Pool
-- ==== Proof.HardSigmoid.lean ====
/-
  The hard-sigmoid gate of the squeeze-excite block, on the extended reals.

  The reference computes  clip(e + 3, 0, 6) · s  with s the binary fraction 11184811 / 2^26 (the single-precision
  neighbour of 1/6); the kernel distributes the factor s over the clip:  clip(e · s + 3·s, 0, 6·s).  Multiplication by a
  positive real is monotone and distributes over a sum with a finite summand on all of [-∞, +∞], so the two agree at
  every extended real e, infinite ones included.
-/
import Idealize.ShloMosaic.PureOps.Ideal

noncomputable section

namespace Cert.HardSigmoid

open Idealize.ShloMosaic

/-- The pattern of +0.0 denotes 0. -/
theorem ofBits_zero : Ideal.ofBits .f32 0x00000000#32 = 0 := by
  simp [Ideal.ofBits, Ideal.ieee]

/-- The pattern of 3.0 denotes 3. -/
theorem ofBits_three : Ideal.ofBits .f32 0x40400000#32 = ((3 : ℝ) : EReal) := by
  simp [Ideal.ofBits, Ideal.ieee, -EReal.coe_mul]; norm_num

/-- The pattern of 6.0 denotes 6. -/
theorem ofBits_six : Ideal.ofBits .f32 0x40C00000#32 = ((6 : ℝ) : EReal) := by
  simp [Ideal.ofBits, Ideal.ieee, -EReal.coe_mul]; norm_num

/-- The pattern 0x3E2AAAAB, single precision's 1/6, denotes 11184811 / 67108864. -/
theorem ofBits_sixth : Ideal.ofBits .f32 0x3E2AAAAB#32 = ((11184811 / 67108864 : ℝ) : EReal) := by
  simp [Ideal.ofBits, Ideal.ieee, -EReal.coe_mul]; norm_num

/-- The distributed clip is the clip scaled: for s = 11184811 / 2^26, 3·s = 33554433 / 2^26 and 6·s = 33554433 / 2^25,
    and  min (6s) (max 0 (e·s + 3s)) = min 6 (max 0 (e + 3)) · s  for every extended real e. -/
theorem fold (e : EReal) :
    min ((33554433 / 33554432 : ℝ) : EReal) (max 0 (e * ((11184811 / 67108864 : ℝ) : EReal) + ((33554433 / 67108864 : ℝ) : EReal)))
      = min ((6 : ℝ) : EReal) (max 0 (e + ((3 : ℝ) : EReal))) * ((11184811 / 67108864 : ℝ) : EReal) := by
  have hk : (0 : ℝ) < 11184811 / 67108864 := by norm_num
  induction e using EReal.rec with
  | bot =>
    rw [EReal.bot_mul_coe_of_pos hk, EReal.bot_add, EReal.bot_add, max_eq_left bot_le,
      min_eq_right (by exact_mod_cast (by norm_num : (0 : ℝ) ≤ 33554433 / 33554432)),
      min_eq_right (by exact_mod_cast (by norm_num : (0 : ℝ) ≤ 6)), zero_mul]
  | coe r =>
    have cmax : ∀ a b : ℝ, max (a : EReal) (b : EReal) = ((max a b : ℝ) : EReal) :=
      fun a b => (EReal.coe_strictMono.monotone.map_max).symm
    have cmin : ∀ a b : ℝ, min (a : EReal) (b : EReal) = ((min a b : ℝ) : EReal) :=
      fun a b => (EReal.coe_strictMono.monotone.map_min).symm
    rw [← EReal.coe_mul, ← EReal.coe_add, ← EReal.coe_add, ← EReal.coe_zero, cmax, cmax, cmin, cmin, ← EReal.coe_mul]
    congr 1
    rw [min_mul_of_nonneg _ _ hk.le, max_mul_of_nonneg _ _ hk.le]
    congr 1
    · norm_num
    · congr 1
      · norm_num
      · ring
  | top =>
    rw [EReal.top_mul_coe_of_pos hk, EReal.top_add_coe, EReal.top_add_coe, max_eq_right le_top,
      min_eq_left le_top, min_eq_left le_top, ← EReal.coe_mul]
    congr 1
    norm_num

end Cert.HardSigmoid

end
-- ==== Proof.SqueezeExcite.lean ====
/-
  The squeeze-excite block as one function of its five argument arrays, on the extended reals.

  For an image n and a channel c of x : [64, 128, 64, 64]:
    mean(n, c)  = (the sum of the 64·64 positions of x(n, c, ·, ·)) · 2⁻¹²
    z(n, j)     = max (Σ_c w1(j, c) · mean(n, c) + b1(j)) 0                     (32 squeezed channels)
    e(n, c)     = Σ_j w2(c, j) · z(n, j) + b2(c)
    gate(n, c)  = min 6 (max 0 (e(n, c) + 3)) · s,   s = 11184811 / 2²⁶
    out(n, c, h, w) = x(n, c, h, w) · gate(n, c).
  The per-image part (mean, z, e, gate) is stated over plain index types — a 128 × 4096 slab and the four small weight
  tables — so that both programs' bodies can be read against it; `G` then reads the slab and the tables off the
  argument arrays. The 4096 positions of a channel are numbered row-major: position p is (p / 64, p % 64).
-/
import proofs.«144707_g2000702466039516_pallasbulk_886_4_alg».proof.Proof.HardSigmoid
import Idealize.ShloMosaic.Lib.ValueIdx

noncomputable section

namespace Cert.SqueezeExcite

open Idealize.ShloMosaic Idealize.ShloMosaic.ValueIdx

/-- A channel's mean: the sum of its 4096 positions times the literal 2⁻¹². -/
def mean (X : Fin 128 → Fin 4096 → EReal) : Fin 128 → EReal :=
  fun c => (∑ p, X c p) * Ideal.ofBits .f32 0x39800000#32

/-- The squeeze: a 128 → 32 linear map, a bias, and a rectifier. -/
def squeeze (W1 : Fin 32 → Fin 128 → EReal) (B1 : Fin 32 → EReal) (s : Fin 128 → EReal) : Fin 32 → EReal :=
  fun j => max ((∑ c, W1 j c * s c) + B1 j) (Ideal.ofBits .f32 0x00000000#32)

/-- The excitation: a 32 → 128 linear map and a bias. -/
def excite (W2 : Fin 128 → Fin 32 → EReal) (B2 : Fin 128 → EReal) (z : Fin 32 → EReal) : Fin 128 → EReal :=
  fun c => (∑ j, W2 c j * z j) + B2 c

/-- The hard sigmoid as the reference spells it: clip(e + 3, 0, 6) times the single-precision sixth. -/
def hsig (e : EReal) : EReal :=
  min (Ideal.ofBits .f32 0x40C00000#32) (max (Ideal.ofBits .f32 0x00000000#32) (e + Ideal.ofBits .f32 0x40400000#32))
    * Ideal.ofBits .f32 0x3E2AAAAB#32

/-- A channel's gate from the image's slab and the weights. -/
def gate (X : Fin 128 → Fin 4096 → EReal) (W1 : Fin 32 → Fin 128 → EReal) (B1 : Fin 32 → EReal)
    (W2 : Fin 128 → Fin 32 → EReal) (B2 : Fin 128 → EReal) : Fin 128 → EReal :=
  fun c => hsig (excite W2 B2 (squeeze W1 B1 (mean X)) c)

/-- The hard sigmoid with the sixth distributed over the clip — the bounds 0, 6·s and the offset 3·s as exact
    fractions — is the reference's. -/
theorem hsig_folded (e : EReal) :
    min ((33554433 / 33554432 : ℝ) : EReal)
        (max (Ideal.ofBits .f32 0x00000000#32) (e * Ideal.ofBits .f32 0x3E2AAAAB#32 + ((33554433 / 67108864 : ℝ) : EReal)))
      = hsig e := by
  unfold hsig
  rw [HardSigmoid.ofBits_zero, HardSigmoid.ofBits_sixth, HardSigmoid.ofBits_three, HardSigmoid.ofBits_six]
  exact HardSigmoid.fold e

/-- Row and column of position p of a 64 × 64 plane numbered row-major. -/
def planeRow (p : Fin 4096) : Fin 64 := ⟨p.val / 64, by have := p.isLt; omega⟩
def planeCol (p : Fin 4096) : Fin 64 := ⟨p.val % 64, Nat.mod_lt _ (by norm_num)⟩

/-- The block's result array as a function of its five argument arrays. -/
def G (x : FVec Ideal ⟨4, ![64, 128, 64, 64]⟩ .f32) (w1 : FVec Ideal ⟨4, ![32, 128, 1, 1]⟩ .f32) (b1 : FVec Ideal ⟨1, ![32]⟩ .f32)
    (w2 : FVec Ideal ⟨4, ![128, 32, 1, 1]⟩ .f32) (b2 : FVec Ideal ⟨1, ![128]⟩ .f32) : FVec Ideal ⟨4, ![64, 128, 64, 64]⟩ .f32 :=
  fun i => x i * gate (fun c p => x (ix4 (i 0) c (planeRow p) (planeCol p)))
    (fun j c => w1 (ix4 j c 0 0)) (fun j => b1 (ix1 j)) (fun c j => w2 (ix4 c j 0 0)) (fun c => b2 (ix1 c)) (i 1)

end Cert.SqueezeExcite

end
-- ==== Proof.KernelBody.lean ====
/-
  What the kernel's body leaves in its output block, entry by entry, on the extended reals: the image's slab times the
  channel's gate.
-/
import proofs.«144707_g2000702466039516_pallasbulk_886_4_alg».proof.Proof.Gen.KernelIdeal.Frame
import proofs.«144707_g2000702466039516_pallasbulk_886_4_alg».proof.Proof.LibKeepdims
import proofs.«144707_g2000702466039516_pallasbulk_886_4_alg».proof.Proof.Pool
import proofs.«144707_g2000702466039516_pallasbulk_886_4_alg».proof.Proof.SqueezeExcite
import Idealize.ShloMosaic.Lib.Pipeline.Value
import Idealize.ShloMosaic.Lib.ValueIdx

set_option maxRecDepth 16384

noncomputable section

namespace Cert.KernelIdeal.Body

open Idealize.ShloMosaic Idealize.ShloMosaic.TcCoe Idealize.ShloMosaic.ValueIdx
open Cert.KernelIdeal Cert.KernelIdeal.Gen

theorem hz : (![0, 0] : Fin 2 → Nat) = fun _ => 0 := funext fun a => by fin_cases a <;> rfl

/-! The layout steps and row sums of this body, at its shapes. -/

theorem transpose_128 {α : Type} (v : S128x1.Idx → α) (h : S128x1.Transposes [1, 0] S1x128) :
    transpose S1x128 [1, 0] v h = fun i => v (ix2 (i 1) (i 0)) := Keepdims.transpose_col v h
theorem transpose_32 {α : Type} (v : S32x1.Idx → α) (h : S32x1.Transposes [1, 0] S1x32) :
    transpose S1x32 [1, 0] v h = fun i => v (ix2 (i 1) (i 0)) := Keepdims.transpose_col v h
theorem rowsum_512 (src : FVec Ideal S128x512 .f32) (acc : BitVec 32) (h : S128x512.Reduces [1] S128) (hφ : FKind.Formats .f32)
    (hacc : acc = FKind.add.neutral .f32 hφ) :
    multiReduction .add [1] S128 src acc h hφ hacc = fun i => ∑ k : Fin 512, src (ix2 (i 0) k) := Keepdims.sum_axis1 src acc h hφ hacc
theorem rowsum_128 (src : FVec Ideal S32x128 .f32) (acc : BitVec 32) (h : S32x128.Reduces [1] S32) (hφ : FKind.Formats .f32)
    (hacc : acc = FKind.add.neutral .f32 hφ) :
    multiReduction .add [1] S32 src acc h hφ hacc = fun i => ∑ k : Fin 128, src (ix2 (i 0) k) := Keepdims.sum_axis1 src acc h hφ hacc
theorem rowsum_32 (src : FVec Ideal S128x32 .f32) (acc : BitVec 32) (h : S128x32.Reduces [1] S128) (hφ : FKind.Formats .f32)
    (hacc : acc = FKind.add.neutral .f32 hφ) :
    multiReduction .add [1] S128 src acc h hφ hacc = fun i => ∑ k : Fin 32, src (ix2 (i 0) k) := Keepdims.sum_axis1 src acc h hφ hacc

theorem ix2_zero {n0 n1 : Nat} (p : Fin n0) (q : Fin n1) : ix2 p q 0 = p := rfl
theorem ix2_one {n0 n1 : Nat} (p : Fin n0) (q : Fin n1) : ix2 p q 1 = q := rfl
theorem ix1_zero {n : Nat} (p : Fin n) : ix1 p 0 = p := rfl

/-- A channel's eight 512-wide chunks added as a tree and summed: the sum of the channel's 4096 positions. -/
theorem pool (x0 : Vec Ideal S128x4096 .f32) (c : Fin 128) :
    (∑ l : Fin 512, (((x0 (ix2 c ⟨0 + l.val, by have := l.isLt; omega⟩) + x0 (ix2 c ⟨512 + l.val, by have := l.isLt; omega⟩)) + (x0 (ix2 c ⟨1024 + l.val, by have := l.isLt; omega⟩) + x0 (ix2 c ⟨1536 + l.val, by have := l.isLt; omega⟩))) + ((x0 (ix2 c ⟨2048 + l.val, by have := l.isLt; omega⟩) + x0 (ix2 c ⟨2560 + l.val, by have := l.isLt; omega⟩)) + (x0 (ix2 c ⟨3072 + l.val, by have := l.isLt; omega⟩) + x0 (ix2 c ⟨3584 + l.val, by have := l.isLt; omega⟩))))) = ∑ p : Fin 4096, x0 (ix2 c p) :=
  Pool.tree8 (fun p => x0 (ix2 c p))

/-- The two named constants of the body: 3·s and 6·s for s = 11184811 / 2²⁶. -/
theorem named_three : Named.named (F := Ideal) κ "three_sixths" (φ := .f32) 0x3F000000#32 = ((33554433 / 67108864 : ℝ) : EReal) :=
  IdealRules.named_const.ideal_named_scalar _ _ _ _ rfl
theorem named_six : Named.named (F := Ideal) κ "six_sixths" (φ := .f32) 0x3F800000#32 = ((33554433 / 33554432 : ℝ) : EReal) :=
  IdealRules.named_const.ideal_named_scalar _ _ _ _ rfl

set_option backward.isDefEq.respectTransparency.types false in
/-- The body's output block: entry (c, p) is the slab's entry times channel c's gate. -/
theorem out_apply (x0 : Vec Ideal S128x4096 .f32) (x1 : Vec Ideal S32x128 .f32) (x2 : Vec Ideal S1x32 .f32)
    (x3 : Vec Ideal S128x32 .f32) (x4 : Vec Ideal S128x1 .f32) :
    out0_5 (F := Ideal) x0 x1 x2 x3 x4 = fun i => x0 i * SqueezeExcite.gate (fun c p => x0 (ix2 c p)) (fun j c => x1 (ix2 j c))
      (fun j => x2 (ix2 0 j)) (fun c j => x3 (ix2 c j)) (fun c => x4 (ix2 c 0)) (i 0) := by
  unfold out0_5
  rw [View.canon_unit_zero hz]
  simp only [View.ld_unit_zero (S := S128x4096) hz, View.ld_unit_zero (S := S32x128) hz, View.ld_unit_zero (S := S1x32) hz,
    View.ld_unit_zero (S := S128x32) hz, View.ld_unit_zero (S := S128x1) hz]
  unfold k0_pay1 k0_pay3 k0_pay2
  simp only [shapeCast_self, Keepdims.shapeCast_col, Keepdims.broadcastTo_row, Keepdims.broadcastTo_col, Keepdims.slice_cols]
  rw [rowsum_32, transpose_32, rowsum_128, transpose_128, rowsum_512]
  funext i
  simp only [mulf_apply, addf_apply, maximumf_apply, minimumf_apply, broadcast_apply, ix2_zero, ix2_one, ix1_zero,
    named_three, named_six, Ideal.ofBits_def]
  rw [SqueezeExcite.hsig_folded]
  unfold SqueezeExcite.gate SqueezeExcite.excite SqueezeExcite.squeeze SqueezeExcite.mean
  exact congrArg (x0 i * ·) (congrArg SqueezeExcite.hsig (congrArg₂ (· + ·) (Finset.sum_congr rfl fun j _ =>
    congrArg (x3 (ix2 (i 0) j) * ·) (congrArg (max · (Ideal.ofBits .f32 0x00000000#32)) (congrArg₂ (· + ·)
      (Finset.sum_congr rfl fun c _ => congrArg (x1 (ix2 j c) * ·) (congrArg (· * Ideal.ofBits .f32 0x39800000#32) (pool x0 c)))
      rfl))) rfl))

end Cert.KernelIdeal.Body

end
-- ==== Proof.KernelValue.lean ====
/-
  The kernel's result array on the extended reals: the squeeze-excite function `SqueezeExcite.G` of the five arguments.

  The region works on the flattened array [8192, 4096] (row 128·n + c is channel c of image n, column 64·h + w is position
  (h, w)); grid point t stages rows 128·t … 128·t + 127, that is image t, computes the image's gates from the whole slab
  and writes the gated slab back to the same rows. The 64 blocks tile the array, and the host reshapes it back.
-/
import proofs.«144707_g2000702466039516_pallasbulk_886_4_alg».proof.Proof.KernelBody
import Idealize.ShloMosaic.Lib.Pipeline.Value
import Idealize.ShloMosaic.Lib.StableHlo.Run
import Idealize.ShloMosaic.Lib.Tactic

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The result as a function of the argument arrays. -/
abbrev result (c : Dev nD) : FVec Ideal S64x128x64x64 .f32 :=
  SqueezeExcite.G (m ((c : Thread nD τ).loc main_arg0)) (m ((c : Thread nD τ).loc main_arg1)) (m ((c : Thread nD τ).loc main_arg2))
    (m ((c : Thread nD τ).loc main_arg3)) (m ((c : Thread nD τ).loc main_arg4))

/-- The region's output array: the result flattened to [8192, 4096]. -/
abbrev flat (c : Dev nD) : Buf (Elt Ideal) ((c : Thread nD τ).loc main_v5) :=
  shapeCast S8192x4096 (result m c) shapeCasts_S64x128x64x64_S8192x4096

/-- Grid point t as an image number. -/
def img (t : Fin cfg0.N) : Fin 64 := ⟨t.val, lt_of_lt_of_eq t.isLt (N_0 : cfg0.N = 64)⟩

/-- The block index maps: the slab windows follow the grid point on the row axis, the weight windows stay at the origin. -/
theorem idx_facts : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The arrays as the region finds them: the host's reshapes of the arguments -/

theorem V_v0 (c : Dev nD) : (V m c main_v0 : S8192x4096.Idx → Elt Ideal .f32)
    = shapeCast S8192x4096 (m ((c : Thread nD τ).loc main_arg0)) shapeCasts_S64x128x64x64_S8192x4096 := by
  show StableHlo.after hostOps0 (fun b => m (c, b)) (Proc.devRef .tc main_v0) = _
  after_results
  rfl
theorem V_v1 (c : Dev nD) : (V m c main_v1 : S32x128.Idx → Elt Ideal .f32)
    = shapeCast S32x128 (m ((c : Thread nD τ).loc main_arg1)) shapeCasts_S32x128x1x1_S32x128 := by
  show StableHlo.after hostOps0 (fun b => m (c, b)) (Proc.devRef .tc main_v1) = _
  after_results
  rfl
theorem V_v2 (c : Dev nD) : (V m c main_v2 : S1x32.Idx → Elt Ideal .f32)
    = shapeCast S1x32 (m ((c : Thread nD τ).loc main_arg2)) shapeCasts_S32_S1x32 := by
  show StableHlo.after hostOps0 (fun b => m (c, b)) (Proc.devRef .tc main_v2) = _
  after_results
  rfl
theorem V_v3 (c : Dev nD) : (V m c main_v3 : S128x32.Idx → Elt Ideal .f32)
    = shapeCast S128x32 (m ((c : Thread nD τ).loc main_arg3)) shapeCasts_S128x32x1x1_S128x32 := by
  show StableHlo.after hostOps0 (fun b => m (c, b)) (Proc.devRef .tc main_v3) = _
  after_results
  rfl
theorem V_v4 (c : Dev nD) : (V m c main_v4 : S128x1.Idx → Elt Ideal .f32)
    = shapeCast S128x1 (m ((c : Thread nD τ).loc main_arg4)) shapeCasts_S128_S128x1 := by
  show StableHlo.after hostOps0 (fun b => m (c, b)) (Proc.devRef .tc main_v4) = _
  after_results
  rfl

/-! ## The staged blocks, entry by entry -/

/-- Entry (cc, p) of the slab block at point t is x(t, cc, p / 64, p % 64). -/
theorem blk0 (c : Dev nD) (t : Fin cfg0.N) (cc : Fin 128) (p : Fin 4096) :
    (iblk m c 0 t : Vec Ideal S128x4096 .f32) (ix2 cc p)
      = (m ((c : Thread nD τ).loc main_arg0) : S64x128x64x64.Idx → Elt Ideal .f32)
          (ix4 (img t) cc (SqueezeExcite.planeRow p) (SqueezeExcite.planeCol p)) := by
  obtain ⟨e0, e1, -⟩ := idx_facts t
  unfold iblk
  rw [View.read_apply]
  show V m c main_v0 (((cfg0.win 0).blk t).view.emb (ix2 cc p)) = _
  rw [V_v0]
  refine shapeCast_apply _ _ _ _ ?_
  refine (Shape.rowMajor_val_four (d := ![64, 128, 64, 64]) _).trans (Eq.trans ?_ (Shape.rowMajor_val_two (d := ![8192, 4096]) _).symm)
  show ((t.val * 128 + cc.val) * 64 + p.val / 64) * 64 + p.val % 64
    = (win0_0.index t (0 : Fin 2) * 128 + 1 * cc.val) * 4096 + (win0_0.index t (1 : Fin 2) * 4096 + 1 * p.val)
  rw [e0, e1]
  omega

/-- Entry (j, cc) of the squeeze-weight block is w1(j, cc, 0, 0). -/
theorem blk1 (c : Dev nD) (t : Fin cfg0.N) (j : Fin 32) (cc : Fin 128) :
    (iblk m c 1 t : Vec Ideal S32x128 .f32) (ix2 j cc)
      = (m ((c : Thread nD τ).loc main_arg1) : S32x128x1x1.Idx → Elt Ideal .f32) (ix4 j cc 0 0) := by
  obtain ⟨-, -, -, -, e0, e1, -⟩ := idx_facts t
  unfold iblk
  rw [View.read_apply]
  show V m c main_v1 (((cfg0.win 1).blk t).view.emb (ix2 j cc)) = _
  rw [V_v1]
  refine shapeCast_apply _ _ _ _ ?_
  refine (Shape.rowMajor_val_four (d := ![32, 128, 1, 1]) _).trans (Eq.trans ?_ (Shape.rowMajor_val_two (d := ![32, 128]) _).symm)
  show ((j.val * 128 + cc.val) * 1 + 0) * 1 + 0
    = (win0_1.index t (0 : Fin 2) * 32 + 1 * j.val) * 128 + (win0_1.index t (1 : Fin 2) * 128 + 1 * cc.val)
  rw [e0, e1]
  omega

/-- Entry (0, j) of the squeeze-bias block is b1(j). -/
theorem blk2 (c : Dev nD) (t : Fin cfg0.N) (j : Fin 32) :
    (iblk m c 2 t : Vec Ideal S1x32 .f32) (ix2 0 j)
      = (m ((c : Thread nD τ).loc main_arg2) : S32.Idx → Elt Ideal .f32) (ix1 j) := by
  obtain ⟨-, -, -, -, -, -, e0, e1, -⟩ := idx_facts t
  unfold iblk
  rw [View.read_apply]
  show V m c main_v2 (((cfg0.win 2).blk t).view.emb (ix2 0 j)) = _
  rw [V_v2]
  refine shapeCast_apply _ _ _ _ ?_
  refine (Shape.rowMajor_val_one (d := ![32]) _).trans (Eq.trans ?_ (Shape.rowMajor_val_two (d := ![1, 32]) _).symm)
  show j.val = (win0_2.index t (0 : Fin 2) * 1 + 1 * 0) * 32 + (win0_2.index t (1 : Fin 2) * 32 + 1 * j.val)
  rw [e0, e1]
  omega

/-- Entry (cc, j) of the excite-weight block is w2(cc, j, 0, 0). -/
theorem blk3 (c : Dev nD) (t : Fin cfg0.N) (cc : Fin 128) (j : Fin 32) :
    (iblk m c 3 t : Vec Ideal S128x32 .f32) (ix2 cc j)
      = (m ((c : Thread nD τ).loc main_arg3) : S128x32x1x1.Idx → Elt Ideal .f32) (ix4 cc j 0 0) := by
  obtain ⟨-, -, -, -, -, -, -, -, e0, e1, -⟩ := idx_facts t
  unfold iblk
  rw [View.read_apply]
  show V m c main_v3 (((cfg0.win 3).blk t).view.emb (ix2 cc j)) = _
  rw [V_v3]
  refine shapeCast_apply _ _ _ _ ?_
  refine (Shape.rowMajor_val_four (d := ![128, 32, 1, 1]) _).trans (Eq.trans ?_ (Shape.rowMajor_val_two (d := ![128, 32]) _).symm)
  show ((cc.val * 32 + j.val) * 1 + 0) * 1 + 0
    = (win0_3.index t (0 : Fin 2) * 128 + 1 * cc.val) * 32 + (win0_3.index t (1 : Fin 2) * 32 + 1 * j.val)
  rw [e0, e1]
  omega

/-- Entry (cc, 0) of the excite-bias block is b2(cc). -/
theorem blk4 (c : Dev nD) (t : Fin cfg0.N) (cc : Fin 128) :
    (iblk m c 4 t : Vec Ideal S128x1 .f32) (ix2 cc 0)
      = (m ((c : Thread nD τ).loc main_arg4) : S128.Idx → Elt Ideal .f32) (ix1 cc) := by
  obtain ⟨-, -, -, -, -, -, -, -, -, -, e0, e1⟩ := idx_facts t
  unfold iblk
  rw [View.read_apply]
  show V m c main_v4 (((cfg0.win 4).blk t).view.emb (ix2 cc 0)) = _
  rw [V_v4]
  refine shapeCast_apply _ _ _ _ ?_
  refine (Shape.rowMajor_val_one (d := ![128]) _).trans (Eq.trans ?_ (Shape.rowMajor_val_two (d := ![128, 1]) _).symm)
  show cc.val = (win0_4.index t (0 : Fin 2) * 128 + 1 * cc.val) * 1 + (win0_4.index t (1 : Fin 2) * 1 + 1 * 0)
  rw [e0, e1]
  omega

/-- The flattened result under entry (cc, p) of the output block at point t is the result at (t, cc, p / 64, p % 64). -/
theorem flat_apply (c : Dev nD) (t : Fin cfg0.N) (cc : Fin 128) (p : Fin 4096) :
    flat m c (((cfg0.win 5).blk t).view.emb (ix2 cc p))
      = result m c (ix4 (img t) cc (SqueezeExcite.planeRow p) (SqueezeExcite.planeCol p)) := by
  obtain ⟨-, -, e0, e1, -⟩ := idx_facts t
  refine shapeCast_apply _ _ _ _ ?_
  refine (Shape.rowMajor_val_four (d := ![64, 128, 64, 64]) _).trans (Eq.trans ?_ (Shape.rowMajor_val_two (d := ![8192, 4096]) _).symm)
  show ((t.val * 128 + cc.val) * 64 + p.val / 64) * 64 + p.val % 64
    = (win0_5.index t (0 : Fin 2) * 128 + 1 * cc.val) * 4096 + (win0_5.index t (1 : Fin 2) * 4096 + 1 * p.val)
  rw [e0, e1]
  omega

/-! ## What a point writes back, the cover, the array after the run -/

/-- The body's output block at point t, from the staged blocks: entry (cc, p) is the result at (t, cc, p / 64, p % 64). -/
theorem out_blk (c : Dev nD) (t : Fin cfg0.N) :
    out0_5 (F := Ideal) (iblk m c 0 t) (iblk m c 1 t) (iblk m c 2 t) (iblk m c 3 t) (iblk m c 4 t)
      = fun y : S128x4096.Idx => result m c (ix4 (img t) (y 0) (SqueezeExcite.planeRow (y 1)) (SqueezeExcite.planeCol (y 1))) := by
  rw [Body.out_apply]
  funext y
  obtain ⟨cc, p, rfl⟩ : ∃ (cc : Fin 128) (p : Fin 4096), y = ix2 cc p := ⟨y 0, y 1, eq_ix2 y⟩
  simp only [blk0, blk1, blk2, blk3, blk4]
  rfl

/-- Point t writes back block t of the flattened result. -/
theorem flushed_eq (c : Dev nD) (t : Fin cfg0.N) :
    (dats m 0 c).flushed 5 t = ((cfg0.win 5).blk t).view.read (Elt Ideal) (flat m c) := by
  show (cfg0.win 5).cut (grid0.coords t) ((dats m 0 c).after 5 t) = _
  rw [after0_5, out_blk]
  funext y
  obtain ⟨cc, p, rfl⟩ : ∃ (cc : Fin 128) (p : Fin 4096), y = ix2 cc p := ⟨y 0, y 1, eq_ix2 y⟩
  show result m c (ix4 (img t) cc (SqueezeExcite.planeRow p) (SqueezeExcite.planeCol p))
    = flat m c (((cfg0.win 5).blk t).view.emb (ix2 cc p))
  exact (flat_apply m c t cc p).symm

/-- An index of the flattened array is in point t's block iff each coordinate is in the block's range. -/
theorem mem_blk (t : Fin cfg0.N) (i : S8192x4096.Idx) :
    i ∈ ((cfg0.win 5).blk t).view.set ↔ ∀ a : Fin 2, win0_5.index t a * S128x4096.size a ≤ (i a).val
      ∧ (i a).val < win0_5.index t a * S128x4096.size a + S128x4096.size a := by
  show i ∈ ((View.whole main_v5).slice (win0_5.rect t)).set ↔ _
  rw [View.set_slice_whole, Rect.mem_set_unit]
  exact Iff.rfl

/-- Row r of the flattened array is in the block of point r / 128. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 64 := N_0
  let t : Fin cfg0.N := ⟨(i 0).val / 128, by rw [hN]; omega⟩
  obtain ⟨-, -, e0, e1, -⟩ := idx_facts t
  refine ⟨t, flush0_5 t, ?_⟩
  rw [mem_blk]
  intro a
  match a with
  | ⟨0, _⟩ =>
    show win0_5.index t (0 : Fin 2) * 128 ≤ (i 0).val ∧ (i 0).val < win0_5.index t (0 : Fin 2) * 128 + 128
    rw [e0]; show (i 0).val / 128 * 128 ≤ (i 0).val ∧ (i 0).val < (i 0).val / 128 * 128 + 128; omega
  | ⟨1, _⟩ =>
    show win0_5.index t (1 : Fin 2) * 4096 ≤ (i 1).val ∧ (i 1).val < win0_5.index t (1 : Fin 2) * 4096 + 4096
    rw [e1]; omega

/-- The region's output array ends holding the flattened result. -/
theorem final (c : Dev nD) : (dats m 0 c).arrAt 5 cfg0.N = flat m c :=
  (dats m 0 c).arrAt_eq_of_cover 5 (flat m c) (fun t _ => flushed_eq m c t) cover

/-! ## The host's reshape after the region, and the run -/

/-- The host reshapes the region's array back to [64, 128, 64, 64]: the result. -/
theorem tail (c : Dev nD) : Pipeline.afterTail₀ cfgs (dats m) 0 (V0 m) [hostOps1] c main_v6 = result m c := by
  unfold Pipeline.afterTail₀
  show StableHlo.after hostOps1 _ (Proc.devRef .tc main_v6) = _
  after_results
  funext i
  show shapeCast S64x128x64x64 (Pipeline.withArrays spec0 c (V0 m c) (fun w => (dats m 0 c).arrAt w cfg0.N)
      (Proc.devRef .tc (Pipeline.arrRef spec0 5))) shapeCasts_S8192x4096_S64x128x64x64 i = result m c i
  rw [(Pipeline.withArrays_arr spec0 launch0.win.arr_inj c (V0 m c) (fun w => (dats m 0 c).arrAt w cfg0.N) 5).trans (final m c)]
  exact congrFun (shapeCast_shapeCast (result m c) _ _) i

/-- The run, read: the result buffer ends at the squeeze-excite function of the arguments, the arguments unchanged. -/
theorem run : θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v6 (Pipeline.mem_restRefs_of main_v6 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.ReferenceBody.lean ====
/-
  What the reference's fused body leaves in its output block, entry by entry, on the extended reals: the image's slab
  times the channel's gate. The block carries a leading unit axis (one image of [64, 128, 4096]); the channel sums are
  taken over thirty-two 128-wide chunks added one after the other.
-/
import proofs.«144707_g2000702466039516_pallasbulk_886_4_alg».proof.Proof.Gen.ReferenceIdeal.Frame
import proofs.«144707_g2000702466039516_pallasbulk_886_4_alg».proof.Proof.LibKeepdims
import proofs.«144707_g2000702466039516_pallasbulk_886_4_alg».proof.Proof.Pool
import proofs.«144707_g2000702466039516_pallasbulk_886_4_alg».proof.Proof.SqueezeExcite
import Idealize.ShloMosaic.Lib.Pipeline.Value
import Idealize.ShloMosaic.Lib.ValueIdx

set_option maxRecDepth 16384

noncomputable section

namespace Cert.ReferenceIdeal.Body

open Idealize.ShloMosaic Idealize.ShloMosaic.TcCoe Idealize.ShloMosaic.ValueIdx
open Cert.ReferenceIdeal Cert.ReferenceIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-! The layout steps and sums of this body, at its shapes. -/

/-- A 128-column chunk of the [1, 128, 4096] block loaded from column o: entry (0, c, l) is entry (0, c, o + l). -/
theorem ld_chunk {Val : EltTy → Type} {e : EltTy} (x : S1x128x4096.Idx → Val e) (o : Nat)
    (inb : ∀ a, (![0, 0, o] : Fin 3 → Nat) a + S1x128x128.size a ≤ S1x128x4096.size a) :
    View.ld x (Rect.unit (s := S1x128x4096) ![0, 0, o] S1x128x128.size inb)
      = fun y => x (ix3 ⟨0, Nat.one_pos⟩ (y 1) ⟨o + (y 2).val, by
          have h1 : o + 128 ≤ 4096 := inb (2 : Fin 3)
          have h2 : (y 2).val < 128 := (y 2).isLt
          omega⟩) := by
  funext y
  show x ((Rect.unit (s := S1x128x4096) ![0, 0, o] S1x128x128.size inb).idx y) = _
  refine congrArg x (funext fun a => Fin.ext ?_)
  match a with
  | ⟨0, _⟩ => show 0 + 1 * (y 0).val = 0; have h0 : (y 0).val < 1 := (y 0).isLt; omega
  | ⟨1, _⟩ => show 0 + 1 * (y 1).val = (y 1).val; omega
  | ⟨2, _⟩ => show o + 1 * (y 2).val = o + (y 2).val; omega

theorem drop_lead_128 {α : Type} (v : S1x128x128.Idx → α) (h : S1x128x128.ShapeCasts S128x128) :
    shapeCast S128x128 v h = fun i => v (ix3 ⟨0, Nat.one_pos⟩ (i 0) (i 1)) := by
  funext i
  refine shapeCast_apply v h i _ ?_
  rw [Shape.rowMajor_val_three, Shape.rowMajor_val_two]
  show (0 * 128 + (i 0).val) * 128 + (i 1).val = (i 0).val * 128 + (i 1).val
  omega
theorem drop_lead_4096 {α : Type} (v : S1x128x4096.Idx → α) (h : S1x128x4096.ShapeCasts S128x4096) :
    shapeCast S128x4096 v h = fun i => v (ix3 ⟨0, Nat.one_pos⟩ (i 0) (i 1)) := by
  funext i
  refine shapeCast_apply v h i _ ?_
  rw [Shape.rowMajor_val_three, Shape.rowMajor_val_two]
  show (0 * 128 + (i 0).val) * 4096 + (i 1).val = (i 0).val * 4096 + (i 1).val
  omega
theorem add_lead_4096 {α : Type} (v : S128x4096.Idx → α) (h : S128x4096.ShapeCasts S1x128x4096) :
    shapeCast S1x128x4096 v h = fun i => v (ix2 (i 1) (i 2)) := by
  funext i
  refine shapeCast_apply v h i _ ?_
  rw [Shape.rowMajor_val_three, Shape.rowMajor_val_two]
  have h0 : (i 0).val < 1 := (i 0).isLt
  show (i 1).val * 4096 + (i 2).val = ((i 0).val * 128 + (i 1).val) * 4096 + (i 2).val
  have : (i 0).val = 0 := by omega
  rw [this]; omega

theorem rowsum_128 (src : FVec Ideal S128x128 .f32) (acc : BitVec 32) (h : S128x128.Reduces [1] S128) (hφ : FKind.Formats .f32)
    (hacc : acc = FKind.add.neutral .f32 hφ) :
    multiReduction .add [1] S128 src acc h hφ hacc = fun i => ∑ k : Fin 128, src (ix2 (i 0) k) := Keepdims.sum_axis1 src acc h hφ hacc
theorem colsum_128 (src : FVec Ideal S128x32 .f32) (acc : BitVec 32) (h : S128x32.Reduces [0] S32) (hφ : FKind.Formats .f32)
    (hacc : acc = FKind.add.neutral .f32 hφ) :
    multiReduction .add [0] S32 src acc h hφ hacc = fun j => ∑ k : Fin 128, src (ix2 k (j 0)) := Keepdims.sum_axis0 src acc h hφ hacc
theorem rowsum_32 (src : FVec Ideal S128x32 .f32) (acc : BitVec 32) (h : S128x32.Reduces [1] S128) (hφ : FKind.Formats .f32)
    (hacc : acc = FKind.add.neutral .f32 hφ) :
    multiReduction .add [1] S128 src acc h hφ hacc = fun i => ∑ k : Fin 32, src (ix2 (i 0) k) := Keepdims.sum_axis1 src acc h hφ hacc

theorem ix2_zero {n0 n1 : Nat} (p : Fin n0) (q : Fin n1) : ix2 p q 0 = p := rfl
theorem ix2_one {n0 n1 : Nat} (p : Fin n0) (q : Fin n1) : ix2 p q 1 = q := rfl
theorem ix1_zero {n : Nat} (p : Fin n) : ix1 p 0 = p := rfl
theorem ix3_zero {n0 n1 n2 : Nat} (p : Fin n0) (q : Fin n1) (r : Fin n2) : ix3 p q r 0 = p := rfl
theorem ix3_one {n0 n1 n2 : Nat} (p : Fin n0) (q : Fin n1) (r : Fin n2) : ix3 p q r 1 = q := rfl
theorem ix3_two {n0 n1 n2 : Nat} (p : Fin n0) (q : Fin n1) (r : Fin n2) : ix3 p q r 2 = r := rfl

/-- A channel's thirty-two 128-wide chunks added in turn and summed: the sum of the channel's 4096 positions. -/
theorem pool (x0 : Vec Ideal S1x128x4096 .f32) (c : Fin 128) :
    (∑ l : Fin 128, (((((((((((((((((((((((((((((((x0 (ix3 ⟨0, Nat.one_pos⟩ c ⟨0 + l.val, by have := l.isLt; omega⟩) + x0 (ix3 ⟨0, Nat.one_pos⟩ c ⟨128 + l.val, by have := l.isLt; omega⟩)) + x0 (ix3 ⟨0, Nat.one_pos⟩ c ⟨256 + l.val, by have := l.isLt; omega⟩)) + x0 (ix3 ⟨0, Nat.one_pos⟩ c ⟨384 + l.val, by have := l.isLt; omega⟩)) + x0 (ix3 ⟨0, Nat.one_pos⟩ c ⟨512 + l.val, by have := l.isLt; omega⟩)) + x0 (ix3 ⟨0, Nat.one_pos⟩ c ⟨640 + l.val, by have := l.isLt; omega⟩)) + x0 (ix3 ⟨0, Nat.one_pos⟩ c ⟨768 + l.val, by have := l.isLt; omega⟩)) + x0 (ix3 ⟨0, Nat.one_pos⟩ c ⟨896 + l.val, by have := l.isLt; omega⟩)) + x0 (ix3 ⟨0, Nat.one_pos⟩ c ⟨1024 + l.val, by have := l.isLt; omega⟩)) + x0 (ix3 ⟨0, Nat.one_pos⟩ c ⟨1152 + l.val, by have := l.isLt; omega⟩)) + x0 (ix3 ⟨0, Nat.one_pos⟩ c ⟨1280 + l.val, by have := l.isLt; omega⟩)) + x0 (ix3 ⟨0, Nat.one_pos⟩ c ⟨1408 + l.val, by have := l.isLt; omega⟩)) + x0 (ix3 ⟨0, Nat.one_pos⟩ c ⟨1536 + l.val, by have := l.isLt; omega⟩)) + x0 (ix3 ⟨0, Nat.one_pos⟩ c ⟨1664 + l.val, by have := l.isLt; omega⟩)) + x0 (ix3 ⟨0, Nat.one_pos⟩ c ⟨1792 + l.val, by have := l.isLt; omega⟩)) + x0 (ix3 ⟨0, Nat.one_pos⟩ c ⟨1920 + l.val, by have := l.isLt; omega⟩)) + x0 (ix3 ⟨0, Nat.one_pos⟩ c ⟨2048 + l.val, by have := l.isLt; omega⟩)) + x0 (ix3 ⟨0, Nat.one_pos⟩ c ⟨2176 + l.val, by have := l.isLt; omega⟩)) + x0 (ix3 ⟨0, Nat.one_pos⟩ c ⟨2304 + l.val, by have := l.isLt; omega⟩)) + x0 (ix3 ⟨0, Nat.one_pos⟩ c ⟨2432 + l.val, by have := l.isLt; omega⟩)) + x0 (ix3 ⟨0, Nat.one_pos⟩ c ⟨2560 + l.val, by have := l.isLt; omega⟩)) + x0 (ix3 ⟨0, Nat.one_pos⟩ c ⟨2688 + l.val, by have := l.isLt; omega⟩)) + x0 (ix3 ⟨0, Nat.one_pos⟩ c ⟨2816 + l.val, by have := l.isLt; omega⟩)) + x0 (ix3 ⟨0, Nat.one_pos⟩ c ⟨2944 + l.val, by have := l.isLt; omega⟩)) + x0 (ix3 ⟨0, Nat.one_pos⟩ c ⟨3072 + l.val, by have := l.isLt; omega⟩)) + x0 (ix3 ⟨0, Nat.one_pos⟩ c ⟨3200 + l.val, by have := l.isLt; omega⟩)) + x0 (ix3 ⟨0, Nat.one_pos⟩ c ⟨3328 + l.val, by have := l.isLt; omega⟩)) + x0 (ix3 ⟨0, Nat.one_pos⟩ c ⟨3456 + l.val, by have := l.isLt; omega⟩)) + x0 (ix3 ⟨0, Nat.one_pos⟩ c ⟨3584 + l.val, by have := l.isLt; omega⟩)) + x0 (ix3 ⟨0, Nat.one_pos⟩ c ⟨3712 + l.val, by have := l.isLt; omega⟩)) + x0 (ix3 ⟨0, Nat.one_pos⟩ c ⟨3840 + l.val, by have := l.isLt; omega⟩)) + x0 (ix3 ⟨0, Nat.one_pos⟩ c ⟨3968 + l.val, by have := l.isLt; omega⟩))) = ∑ p : Fin 4096, x0 (ix3 ⟨0, Nat.one_pos⟩ c p) :=
  Pool.chain32 (fun p => x0 (ix3 ⟨0, Nat.one_pos⟩ c p))

set_option backward.isDefEq.respectTransparency.types false in
/-- The body's output block: entry (0, c, p) is the slab's entry times channel c's gate. -/
theorem out_apply (x0 : Vec Ideal S1x128x4096 .f32) (x1 : Vec Ideal S128x32 .f32) (x2 : Vec Ideal S1x32 .f32)
    (x3 : Vec Ideal S128x32 .f32) (x4 : Vec Ideal S128x1 .f32) :
    out0_5 (F := Ideal) x0 x1 x2 x3 x4 = fun i => x0 (ix3 ⟨0, Nat.one_pos⟩ (i 1) (i 2))
      * SqueezeExcite.gate (fun c p => x0 (ix3 ⟨0, Nat.one_pos⟩ c p)) (fun j c => x1 (ix2 c j))
        (fun j => x2 (ix2 ⟨0, Nat.one_pos⟩ j)) (fun c j => x3 (ix2 c j)) (fun c => x4 (ix2 c ⟨0, Nat.one_pos⟩)) (i 1) := by
  unfold out0_5
  rw [View.canon_unit_zero hz3]
  simp only [ld_chunk, View.ld_unit_zero (S := S1x128x4096) hz3, View.ld_unit_zero (S := S128x32) hz2,
    View.ld_unit_zero (S := S1x32) hz2, View.ld_unit_zero (S := S128x1) hz2]
  unfold k0_pay1 k0_pay6 k0_pay5 k0_pay4 k0_pay3 k0_pay2
  simp only [shapeCast_self, drop_lead_128, drop_lead_4096, add_lead_4096, Keepdims.shapeCast_col, Keepdims.shapeCast_row,
    Keepdims.broadcastTo_row, Keepdims.broadcastTo_col]
  rw [rowsum_32, colsum_128, rowsum_128]
  funext i
  simp only [mulf_apply, addf_apply, maximumf_apply, minimumf_apply, broadcast_apply, ix2_zero, ix2_one, ix1_zero,
    ix3_zero, ix3_one, ix3_two, Ideal.ofBits_def]
  unfold SqueezeExcite.gate SqueezeExcite.hsig SqueezeExcite.excite SqueezeExcite.squeeze SqueezeExcite.mean
  exact congrArg (x0 (ix3 ⟨0, Nat.one_pos⟩ (i 1) (i 2)) * ·) (congrArg (· * Ideal.ofBits .f32 0x3E2AAAAB#32)
    (congrArg (min (Ideal.ofBits .f32 0x40C00000#32)) (congrArg (max (Ideal.ofBits .f32 0x00000000#32))
      (congrArg (· + Ideal.ofBits .f32 0x40400000#32) (congrArg₂ (· + ·) (Finset.sum_congr rfl fun j _ =>
        congrArg (x3 (ix2 (i 1) j) * ·) (congrArg (max · (Ideal.ofBits .f32 0x00000000#32)) (congrArg₂ (· + ·)
          (Finset.sum_congr rfl fun c _ => congrArg (x1 (ix2 c j) * ·) (congrArg (· * Ideal.ofBits .f32 0x39800000#32) (pool x0 c)))
          rfl))) rfl)))))

end Cert.ReferenceIdeal.Body

end
-- ==== Proof.ReferenceValue.lean ====
/-
  The reference's result array on the extended reals: the same squeeze-excite function `SqueezeExcite.G` of the five
  arguments.

  The host transposes the squeeze weight to [128, 32] and views the biases as a row and a column; the region works on
  x viewed as [64, 128, 4096]; grid point t stages image t as a [1, 128, 4096] block, computes the gates and writes
  the gated block back. The 64 blocks tile the array, and the host reshapes it back.
-/
import proofs.«144707_g2000702466039516_pallasbulk_886_4_alg».proof.Proof.ReferenceBody
import Idealize.ShloMosaic.Lib.Pipeline.Value
import Idealize.ShloMosaic.Lib.StableHlo.Run
import Idealize.ShloMosaic.Lib.Tactic

set_option maxRecDepth 16384

noncomputable section

namespace Cert.ReferenceIdeal.Hand

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

/-- The result as a function of the argument arrays. -/
abbrev result (c : Dev nD) : FVec Ideal S64x128x64x64 .f32 :=
  SqueezeExcite.G (m ((c : Thread nD τ).loc main_arg0)) (m ((c : Thread nD τ).loc main_arg1)) (m ((c : Thread nD τ).loc main_arg2))
    (m ((c : Thread nD τ).loc main_arg3)) (m ((c : Thread nD τ).loc main_arg4))

/-- The region's output array: the result viewed as [64, 128, 4096]. -/
abbrev flat (c : Dev nD) : Buf (Elt Ideal) ((c : Thread nD τ).loc main_call0_v1) :=
  shapeCast S64x128x4096 (result m c) shapeCasts_S64x128x64x64_S64x128x4096

/-- Grid point t as an image number. -/
def img (t : Fin cfg0.N) : Fin 64 := ⟨t.val, lt_of_lt_of_eq t.isLt (N_0 : cfg0.N = 64)⟩

/-- The block index maps: the slab windows follow the grid point on the image axis, the weight windows stay at the origin. -/
theorem idx_facts : ∀ t : Fin cfg0.N, win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The arrays as the region finds them: the host's views of the arguments -/

theorem V_x (c : Dev nD) : (V m c main_call0_v0 : S64x128x4096.Idx → Elt Ideal .f32)
    = shapeCast S64x128x4096 (m ((c : Thread nD τ).loc main_arg0)) shapeCasts_S64x128x64x64_S64x128x4096 := by
  dsimp only [V, V0]
  simp only [hostOps0, hostOps0_1, List.flatten_cons, List.flatten_nil, List.append_nil, List.cons_append, List.nil_append]
  after_results
  rfl
theorem V_w1 (c : Dev nD) : (V m c main_v1 : S128x32.Idx → Elt Ideal .f32)
    = transpose S128x32 [1, 0] (shapeCast S32x128 (m ((c : Thread nD τ).loc main_arg1)) shapeCasts_S32x128x1x1_S32x128)
        transposes_S32x128_S128x32_1_0 := by
  dsimp only [V, V0]
  simp only [hostOps0, hostOps0_1, List.flatten_cons, List.flatten_nil, List.append_nil, List.cons_append, List.nil_append]
  after_results
  rfl
theorem V_b1 (c : Dev nD) : (V m c main_v2 : S1x32.Idx → Elt Ideal .f32)
    = shapeCast S1x32 (m ((c : Thread nD τ).loc main_arg2)) shapeCasts_S32_S1x32 := by
  dsimp only [V, V0]
  simp only [hostOps0, hostOps0_1, List.flatten_cons, List.flatten_nil, List.append_nil, List.cons_append, List.nil_append]
  after_results
  rfl
theorem V_w2 (c : Dev nD) : (V m c main_v3 : S128x32.Idx → Elt Ideal .f32)
    = shapeCast S128x32 (m ((c : Thread nD τ).loc main_arg3)) shapeCasts_S128x32x1x1_S128x32 := by
  dsimp only [V, V0]
  simp only [hostOps0, hostOps0_1, List.flatten_cons, List.flatten_nil, List.append_nil, List.cons_append, List.nil_append]
  after_results
  rfl
theorem V_b2 (c : Dev nD) : (V m c main_v4 : S128x1.Idx → Elt Ideal .f32)
    = shapeCast S128x1 (m ((c : Thread nD τ).loc main_arg4)) shapeCasts_S128_S128x1 := by
  dsimp only [V, V0]
  simp only [hostOps0, hostOps0_1, List.flatten_cons, List.flatten_nil, List.append_nil, List.cons_append, List.nil_append]
  after_results
  rfl

/-! ## The staged blocks, entry by entry -/

/-- Entry (0, cc, p) of the slab block at point t is x(t, cc, p / 64, p % 64). -/
theorem blk0 (c : Dev nD) (t : Fin cfg0.N) (cc : Fin 128) (p : Fin 4096) :
    (iblk m c 0 t : Vec Ideal S1x128x4096 .f32) (ix3 ⟨0, Nat.one_pos⟩ cc p)
      = (m ((c : Thread nD τ).loc main_arg0) : S64x128x64x64.Idx → Elt Ideal .f32)
          (ix4 (img t) cc (SqueezeExcite.planeRow p) (SqueezeExcite.planeCol p)) := by
  obtain ⟨e0, e1, e2, -⟩ := idx_facts t
  unfold iblk
  rw [View.read_apply]
  show V m c main_call0_v0 (((cfg0.win 0).blk t).view.emb (ix3 ⟨0, Nat.one_pos⟩ cc p)) = _
  rw [V_x]
  refine shapeCast_apply _ _ _ _ ?_
  refine (Shape.rowMajor_val_four (d := ![64, 128, 64, 64]) _).trans (Eq.trans ?_ (Shape.rowMajor_val_three (d := ![64, 128, 4096]) _).symm)
  show ((t.val * 128 + cc.val) * 64 + p.val / 64) * 64 + p.val % 64
    = ((win0_0.index t (0 : Fin 3) * 1 + 1 * 0) * 128 + (win0_0.index t (1 : Fin 3) * 128 + 1 * cc.val)) * 4096
        + (win0_0.index t (2 : Fin 3) * 4096 + 1 * p.val)
  rw [e0, e1, e2]
  omega

/-- Entry (cc, j) of the transposed squeeze-weight block is w1(j, cc, 0, 0). -/
theorem blk1 (c : Dev nD) (t : Fin cfg0.N) (cc : Fin 128) (j : Fin 32) :
    (iblk m c 1 t : Vec Ideal S128x32 .f32) (ix2 cc j)
      = (m ((c : Thread nD τ).loc main_arg1) : S32x128x1x1.Idx → Elt Ideal .f32) (ix4 j cc 0 0) := by
  obtain ⟨-, -, -, -, -, -, e0, e1, -⟩ := idx_facts t
  unfold iblk
  rw [View.read_apply]
  show V m c main_v1 (((cfg0.win 1).blk t).view.emb (ix2 cc j)) = _
  rw [V_w1]
  refine (transpose_apply _ _ _ _ (ix2 j cc) fun b => ?_).trans ?_
  · match b with
    | ⟨0, _⟩ => show cc.val = win0_1.index t (0 : Fin 2) * 128 + 1 * cc.val; rw [e0]; omega
    | ⟨1, _⟩ => show j.val = win0_1.index t (1 : Fin 2) * 32 + 1 * j.val; rw [e1]; omega
  · refine shapeCast_apply _ _ _ _ ?_
    refine (Shape.rowMajor_val_four (d := ![32, 128, 1, 1]) _).trans (Eq.trans ?_ (Shape.rowMajor_val_two (d := ![32, 128]) _).symm)
    show ((j.val * 128 + cc.val) * 1 + 0) * 1 + 0 = j.val * 128 + cc.val
    omega

/-- Entry (0, j) of the squeeze-bias block is b1(j). -/
theorem blk2 (c : Dev nD) (t : Fin cfg0.N) (j : Fin 32) :
    (iblk m c 2 t : Vec Ideal S1x32 .f32) (ix2 ⟨0, Nat.one_pos⟩ j)
      = (m ((c : Thread nD τ).loc main_arg2) : S32.Idx → Elt Ideal .f32) (ix1 j) := by
  obtain ⟨-, -, -, -, -, -, -, -, e0, e1, -⟩ := idx_facts t
  unfold iblk
  rw [View.read_apply]
  show V m c main_v2 (((cfg0.win 2).blk t).view.emb (ix2 ⟨0, Nat.one_pos⟩ j)) = _
  rw [V_b1]
  refine shapeCast_apply _ _ _ _ ?_
  refine (Shape.rowMajor_val_one (d := ![32]) _).trans (Eq.trans ?_ (Shape.rowMajor_val_two (d := ![1, 32]) _).symm)
  show j.val = (win0_2.index t (0 : Fin 2) * 1 + 1 * 0) * 32 + (win0_2.index t (1 : Fin 2) * 32 + 1 * j.val)
  rw [e0, e1]
  omega

/-- Entry (cc, j) of the excite-weight block is w2(cc, j, 0, 0). -/
theorem blk3 (c : Dev nD) (t : Fin cfg0.N) (cc : Fin 128) (j : Fin 32) :
    (iblk m c 3 t : Vec Ideal S128x32 .f32) (ix2 cc j)
      = (m ((c : Thread nD τ).loc main_arg3) : S128x32x1x1.Idx → Elt Ideal .f32) (ix4 cc j 0 0) := by
  obtain ⟨-, -, -, -, -, -, -, -, -, -, e0, e1, -⟩ := idx_facts t
  unfold iblk
  rw [View.read_apply]
  show V m c main_v3 (((cfg0.win 3).blk t).view.emb (ix2 cc j)) = _
  rw [V_w2]
  refine shapeCast_apply _ _ _ _ ?_
  refine (Shape.rowMajor_val_four (d := ![128, 32, 1, 1]) _).trans (Eq.trans ?_ (Shape.rowMajor_val_two (d := ![128, 32]) _).symm)
  show ((cc.val * 32 + j.val) * 1 + 0) * 1 + 0
    = (win0_3.index t (0 : Fin 2) * 128 + 1 * cc.val) * 32 + (win0_3.index t (1 : Fin 2) * 32 + 1 * j.val)
  rw [e0, e1]
  omega

/-- Entry (cc, 0) of the excite-bias block is b2(cc). -/
theorem blk4 (c : Dev nD) (t : Fin cfg0.N) (cc : Fin 128) :
    (iblk m c 4 t : Vec Ideal S128x1 .f32) (ix2 cc ⟨0, Nat.one_pos⟩)
      = (m ((c : Thread nD τ).loc main_arg4) : S128.Idx → Elt Ideal .f32) (ix1 cc) := by
  obtain ⟨-, -, -, -, -, -, -, -, -, -, -, -, e0, e1⟩ := idx_facts t
  unfold iblk
  rw [View.read_apply]
  show V m c main_v4 (((cfg0.win 4).blk t).view.emb (ix2 cc ⟨0, Nat.one_pos⟩)) = _
  rw [V_b2]
  refine shapeCast_apply _ _ _ _ ?_
  refine (Shape.rowMajor_val_one (d := ![128]) _).trans (Eq.trans ?_ (Shape.rowMajor_val_two (d := ![128, 1]) _).symm)
  show cc.val = (win0_4.index t (0 : Fin 2) * 128 + 1 * cc.val) * 1 + (win0_4.index t (1 : Fin 2) * 1 + 1 * 0)
  rw [e0, e1]
  omega

/-- The viewed result under entry (0, cc, p) of the output block at point t is the result at (t, cc, p / 64, p % 64). -/
theorem flat_apply (c : Dev nD) (t : Fin cfg0.N) (cc : Fin 128) (p : Fin 4096) :
    flat m c (((cfg0.win 5).blk t).view.emb (ix3 ⟨0, Nat.one_pos⟩ cc p))
      = result m c (ix4 (img t) cc (SqueezeExcite.planeRow p) (SqueezeExcite.planeCol p)) := by
  obtain ⟨-, -, -, e0, e1, e2, -⟩ := idx_facts t
  refine shapeCast_apply _ _ _ _ ?_
  refine (Shape.rowMajor_val_four (d := ![64, 128, 64, 64]) _).trans (Eq.trans ?_ (Shape.rowMajor_val_three (d := ![64, 128, 4096]) _).symm)
  show ((t.val * 128 + cc.val) * 64 + p.val / 64) * 64 + p.val % 64
    = ((win0_5.index t (0 : Fin 3) * 1 + 1 * 0) * 128 + (win0_5.index t (1 : Fin 3) * 128 + 1 * cc.val)) * 4096
        + (win0_5.index t (2 : Fin 3) * 4096 + 1 * p.val)
  rw [e0, e1, e2]
  omega

/-! ## What a point writes back, the cover, the array after the run -/

/-- The body's output block at point t, from the staged blocks: entry (0, cc, p) is the result at (t, cc, p / 64, p % 64). -/
theorem out_blk (c : Dev nD) (t : Fin cfg0.N) :
    out0_5 (F := Ideal) (iblk m c 0 t) (iblk m c 1 t) (iblk m c 2 t) (iblk m c 3 t) (iblk m c 4 t)
      = fun y : S1x128x4096.Idx => result m c (ix4 (img t) (y 1) (SqueezeExcite.planeRow (y 2)) (SqueezeExcite.planeCol (y 2))) := by
  rw [Body.out_apply]
  funext y
  obtain ⟨z, cc, p, rfl⟩ : ∃ (z : Fin 1) (cc : Fin 128) (p : Fin 4096), y = ix3 z cc p := ⟨y 0, y 1, y 2, eq_ix3 y⟩
  simp only [Body.ix3_one, Body.ix3_two, blk0, blk1, blk2, blk3, blk4]
  rfl

/-- Point t writes back block t of the viewed result. -/
theorem flushed_eq (c : Dev nD) (t : Fin cfg0.N) :
    (dats m 0 c).flushed 5 t = ((cfg0.win 5).blk t).view.read (Elt Ideal) (flat m c) := by
  show (cfg0.win 5).cut (grid0.coords t) ((dats m 0 c).after 5 t) = _
  rw [after0_5, out_blk]
  funext y
  obtain ⟨z, cc, p, rfl⟩ : ∃ (z : Fin 1) (cc : Fin 128) (p : Fin 4096), y = ix3 z cc p := ⟨y 0, y 1, y 2, eq_ix3 y⟩
  obtain rfl : z = ⟨0, Nat.one_pos⟩ := Subsingleton.elim _ _
  show result m c (ix4 (img t) cc (SqueezeExcite.planeRow p) (SqueezeExcite.planeCol p))
    = flat m c (((cfg0.win 5).blk t).view.emb (ix3 ⟨0, Nat.one_pos⟩ cc p))
  exact (flat_apply m c t cc p).symm

/-- An index of the viewed array is in point t's block iff each coordinate is in the block's range. -/
theorem mem_blk (t : Fin cfg0.N) (i : S64x128x4096.Idx) :
    i ∈ ((cfg0.win 5).blk t).view.set ↔ ∀ a : Fin 3, win0_5.index t a * S1x128x4096.size a ≤ (i a).val
      ∧ (i a).val < win0_5.index t a * S1x128x4096.size a + S1x128x4096.size a := by
  show i ∈ ((View.whole main_call0_v1).slice (win0_5.rect t)).set ↔ _
  rw [View.set_slice_whole, Rect.mem_set_unit]
  exact Iff.rfl

/-- Image n of the viewed array is the block of point n. -/
theorem cover (i : S64x128x4096.Idx) :
    ∃ t : Fin cfg0.N, (cfg0.win 5).flush t = true ∧ i ∈ ((cfg0.win 5).blk t).view.set := by
  have hi0 : (i 0).val < 64 := (i 0).isLt
  have hi1 : (i 1).val < 128 := (i 1).isLt
  have hi2 : (i 2).val < 4096 := (i 2).isLt
  have hN : cfg0.N = 64 := N_0
  let t : Fin cfg0.N := ⟨(i 0).val, by rw [hN]; exact hi0⟩
  obtain ⟨-, -, -, e0, e1, e2, -⟩ := idx_facts t
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    rw [e0]; show (i 0).val * 1 ≤ (i 0).val ∧ (i 0).val < (i 0).val * 1 + 1; omega
  | ⟨1, _⟩ =>
    show win0_5.index t (1 : Fin 3) * 128 ≤ (i 1).val ∧ (i 1).val < win0_5.index t (1 : Fin 3) * 128 + 128
    rw [e1]; omega
  | ⟨2, _⟩ =>
    show win0_5.index t (2 : Fin 3) * 4096 ≤ (i 2).val ∧ (i 2).val < win0_5.index t (2 : Fin 3) * 4096 + 4096
    rw [e2]; omega

/-- The region's output array ends holding the viewed result. -/
theorem final (c : Dev nD) : (dats m 0 c).arrAt 5 cfg0.N = flat m c :=
  (dats m 0 c).arrAt_eq_of_cover 5 (flat m c) (fun t _ => flushed_eq m c t) cover

/-! ## The host's reshape after the region, and the run -/

/-- The host reshapes the region's array back to [64, 128, 64, 64]: the result. -/
theorem tail (c : Dev nD) : Pipeline.afterTail₀ cfgs (dats m) 0 (V0 m) [hostOps1] c main_v5 = result m c := by
  unfold Pipeline.afterTail₀
  show StableHlo.after hostOps1 _ (Proc.devRef .tc main_v5) = _
  after_results
  funext i
  show shapeCast S64x128x64x64 (Pipeline.withArrays spec0 c (V0 m c) (fun w => (dats m 0 c).arrAt w cfg0.N)
      (Proc.devRef .tc (Pipeline.arrRef spec0 5))) shapeCasts_S64x128x4096_S64x128x64x64 i = result m c i
  rw [(Pipeline.withArrays_arr spec0 launch0.win.arr_inj c (V0 m c) (fun w => (dats m 0 c).arrAt w cfg0.N) 5).trans (final m c)]
  exact congrFun (shapeCast_shapeCast (result m c) _ _) i

/-- The run, read: the result buffer ends at the squeeze-excite function of the arguments, the arguments unchanged. -/
theorem run : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v5 (Pipeline.mem_restRefs_of main_v5 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Hand

end
-- ==== Proof.lean ====
/-
  The squeeze-excite kernel against its reference, on the extended reals.

  Both programs compute, for x : [64, 128, 64, 64] and the weights of two 1×1 convolutions,
      out(n, c, h, w) = x(n, c, h, w) · gate(n, c),
      gate(n, c) = min 6 (max 0 (e(n, c) + 3)) · s,    s = 11184811 / 2²⁶ (single precision's 1/6),
      e(n, c) = Σ_j w2(c, j) · max (Σ_c' w1(j, c') · mean(n, c') + b1(j)) 0 + b2(c),
      mean(n, c) = (Σ_{h, w} x(n, c, h, w)) · 2⁻¹²
  (Proof/SqueezeExcite.lean). They differ in three ways, none of which changes a value on the extended reals:
    · the order in which a channel's 4096 positions are added — eight chunks of 512 as a balanced tree against thirty-two
      chunks of 128 in turn; addition is commutative and associative (Proof/Pool.lean);
    · the layout — rows 128·n + c of a [8192, 4096] array, with the squeeze weight as given and two in-body transposes,
      against images of a [64, 128, 4096] array with the squeeze weight transposed on the host (Proof/KernelValue.lean,
      Proof/ReferenceValue.lean: each grid point stages one image and writes the gated image back; the blocks tile the array);
    · the hard sigmoid — the kernel distributes s over the clip, clip(e·s + 3·s, 0, 6·s), its two constants 0.5 and 1.0 read
      as the fractions 3·s and 6·s (the two named constants: the `preserves` conjuncts); multiplication by a positive real is
      monotone and distributes over a sum with a finite summand at every extended real (Proof/HardSigmoid.lean).
  No step uses the finiteness of the inputs.
-/
import proofs.«144707_g2000702466039516_pallasbulk_886_4_alg».proof.Defs
import proofs.«144707_g2000702466039516_pallasbulk_886_4_alg».proof.Proof.Gen.Kernel
import proofs.«144707_g2000702466039516_pallasbulk_886_4_alg».proof.Proof.Gen.Kernel.Frame
import proofs.«144707_g2000702466039516_pallasbulk_886_4_alg».proof.Proof.Gen.KernelIdeal
import proofs.«144707_g2000702466039516_pallasbulk_886_4_alg».proof.Proof.Gen.KernelIdeal.Frame
import proofs.«144707_g2000702466039516_pallasbulk_886_4_alg».proof.Proof.Gen.ReferenceIdeal
import proofs.«144707_g2000702466039516_pallasbulk_886_4_alg».proof.Proof.Gen.ReferenceIdeal.Frame
import proofs.«144707_g2000702466039516_pallasbulk_886_4_alg».proof.Proof.Gen.Pre_finite_inputs
import proofs.«144707_g2000702466039516_pallasbulk_886_4_alg».proof.Proof.KernelValue
import proofs.«144707_g2000702466039516_pallasbulk_886_4_alg».proof.Proof.ReferenceValue
import Idealize.ShloMosaic.Adequacy
import Idealize.ShloMosaic.Init

noncomputable section

namespace Cert.Proof

open Idealize.ShloMosaic Idealize.SL.Sem

/-- Each of the three programs runs and leaves its arguments as they were. -/
theorem frame_kernel : Cert.frame_Kernel :=
  fun m ρ _ => Cert.Kernel.Gen.frame m ρ
theorem frame_kernelIdeal : Cert.frame_KernelIdeal :=
  fun m ρ _ => Cert.KernelIdeal.Gen.frame m ρ
theorem frame_referenceIdeal : Cert.frame_ReferenceIdeal :=
  fun m ρ _ => Cert.ReferenceIdeal.Gen.frame m ρ

/-- The two named constants: 0.5 read as 3·s = 33554433 / 2²⁶ and 1.0 read as 6·s = 33554433 / 2²⁵. -/
theorem preserves : Cert.preserves_Kernel_KernelIdeal :=
  ⟨IdealRules.named_const.statement Cert.KernelIdeal.κ "three_sixths" .f32 0x3F000000#32 ((33554433 / 67108864 : ℝ) : EReal) rfl,
   IdealRules.named_const.statement Cert.KernelIdeal.κ "six_sixths" .f32 0x3F800000#32 ((33554433 / 33554432 : ℝ) : EReal) rfl⟩

/-- Both idealized programs end with their result buffer at the squeeze-excite function of the (agreeing) arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ?_) (Cert.ReferenceIdeal.Hand.run m' ρ')
  obtain ⟨h0, h1, h2, h3, h4, h5⟩ := h c
  obtain ⟨a0, a1, a2, a3, a4⟩ := hagree c
  refine ⟨h0.trans ?_, h1, h2, h3, h4, h5⟩
  show Cert.SqueezeExcite.G _ _ _ _ _ = Cert.SqueezeExcite.G _ _ _ _ _
  rw [a0, a1, a2, a3, a4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
